-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S800000 : Shape := ⟨1, ![800000]⟩
abbrev S400000 : Shape := ⟨1, ![400000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S256x128 .f32) (main_arg16 : FVec F S256x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg15
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256x128 .f32 := Host.absf main_arg16
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg11 : FVec F S256 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x128 .f32 := Host.absf main_arg13
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_v48 main_v49 main_v50

def fn_part1 {F : FTy → Type} [FloatOps F] (main_arg8 : FVec F S256 .f32) (main_arg9 : FVec F S128x256 .f32) (main_arg10 : FVec F S128x256 .f32) (main_arg11 : FVec F S256 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x128 .f32) (main_arg1 : FVec F S50000x128 .f32) (main_arg2 : IVec S800000 32) (main_arg3 : IVec S800000 32) (main_arg4 : IVec S400000 32) (main_arg5 : IVec S400000 32) (main_arg6 : FVec F S128x256 .f32) (main_arg7 : FVec F S128x256 .f32) (main_arg8 : FVec F S256 .f32) (main_arg9 : FVec F S128x256 .f32) (main_arg10 : FVec F S128x256 .f32) (main_arg11 : FVec F S256 .f32) (main_arg12 : FVec F S256x128 .f32) (main_arg13 : FVec F S256x128 .f32) (main_arg14 : FVec F S128 .f32) (main_arg15 : FVec F S256x128 .f32) (main_arg16 : FVec F S256x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x128 : Shape := ⟨2, ![100000, 128]⟩
abbrev S50000x128 : Shape := ⟨2, ![50000, 128]⟩
abbrev S800000 : Shape := ⟨1, ![800000]⟩
abbrev S400000 : Shape := ⟨1, ![400000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S100000x256 : Shape := ⟨2, ![100000, 256]⟩
abbrev S800000x256 : Shape := ⟨2, ![800000, 256]⟩
abbrev S1x128 : Shape := ⟨2, ![1, 128]⟩
abbrev S400000x1 : Shape := ⟨2, ![400000, 1]⟩
abbrev S400000x128 : Shape := ⟨2, ![400000, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 150
  | .vmem => 42
  | .smem => 0
  | _ => 0

abbrev hbmTy0_0 (i : Nat) : BufTy := match i % 128 with
  | 0 => ⟨S100000x128, .f32⟩
  | 1 => ⟨S50000x128, .f32⟩
  | 2 => ⟨S800000, .i32⟩
  | 3 => ⟨S800000, .i32⟩
  | 4 => ⟨S400000, .i32⟩
  | 5 => ⟨S400000, .i32⟩
  | 6 => ⟨S128x256, .f32⟩
  | 7 => ⟨S128x256, .f32⟩
  | 8 => ⟨S256, .f32⟩
  | 9 => ⟨S128x256, .f32⟩
  | 10 => ⟨S128x256, .f32⟩
  | 11 => ⟨S256, .f32⟩
  | 12 => ⟨S256x128, .f32⟩
  | 13 => ⟨S256x128, .f32⟩
  | 14 => ⟨S128, .f32⟩
  | 15 => ⟨S256x128, .f32⟩
  | 16 => ⟨S256x128, .f32⟩
  | 17 => ⟨S128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S100000x128, .f32⟩
  | 55 => ⟨S800000x1, .i32⟩
  | 56 => ⟨S100000x128, .f32⟩
  | 57 => ⟨S_, .f32⟩
  | 58 => ⟨S800000, .f32⟩
  | 59 => ⟨S_, .f32⟩
  | 60 => ⟨S100000, .f32⟩
  | 61 => ⟨S800000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S1x256, .f32⟩
  | 71 => ⟨S50000x256, .f32⟩
  | 72 => ⟨S1x256, .f32⟩
  | 73 => ⟨S100000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S_, .f32⟩
  | 95 => ⟨S50000, .f32⟩
  | 96 => ⟨S50000, .f32⟩
  | 97 => ⟨S50000x1, .f32⟩
  | 98 => ⟨S50000x256, .f32⟩
  | 99 => ⟨S50000x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S100000x256, .f32⟩
  | 111 => ⟨S800000x1, .i32⟩
  | 112 => ⟨S100000x256, .f32⟩
  | 113 => ⟨S_, .f32⟩
  | 114 => ⟨S800000, .f32⟩
  | 115 => ⟨S_, .f32⟩
  | 116 => ⟨S100000, .f32⟩
  | 117 => ⟨S800000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000x1, .f32⟩
  | 124 => ⟨S100000x256, .f32⟩
  | 125 => ⟨S100000x256, .f32⟩
  | 126 => ⟨S1x128, .f32⟩
  | 127 => ⟨S50000x128, .f32⟩
  | _ => ⟨S100000x128, .f32⟩

abbrev hbmTy0_1 (i : Nat) : BufTy := match i % 128 with
  | 0 => ⟨S1x128, .f32⟩
  | 1 => ⟨S100000x128, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000x128, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x128, .f32⟩
  | 20 => ⟨S400000x1, .f32⟩
  | 21 => ⟨S400000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x128, .f32⟩
  | .local _ .vmem, ⟨4, _⟩ => ⟨S2000x128, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S128x256, .f32⟩
  | .local _ .vmem, ⟨12, _⟩ => ⟨S2000x128, .f32⟩
  | .local _ .vmem, ⟨13, _⟩ => ⟨S2000x128, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S2000x256, .f32⟩
  | .local _ .vmem, ⟨22, _⟩ => ⟨S2000x256, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x256, .f32⟩
  | .local _ .vmem, ⟨28, _⟩ => ⟨S2000x256, .f32⟩
  | .local _ .vmem, ⟨29, _⟩ => ⟨S256x128, .f32⟩
  | .local _ .vmem, ⟨30, _⟩ => ⟨S2000x256, .f32⟩
  | .local _ .vmem, ⟨31, _⟩ => ⟨S2000x256, .f32⟩
  | .local _ .vmem, ⟨32, _⟩ => ⟨S256x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_cst_14 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_15 : Ref sig .tc := ⟨.hbm, 93, rfl⟩
abbrev main_call2_v0 : Ref sig .tc := ⟨.hbm, 94, rfl⟩
abbrev main_call2_v1 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_16 : Ref sig .tc := ⟨.hbm, 100, rfl⟩
abbrev main_v58 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_19 : Ref sig .tc := ⟨.hbm, 113, rfl⟩
abbrev main_v68 : Ref sig .tc := ⟨.hbm, 114, rfl⟩
abbrev main_cst_20 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_21 : Ref sig .tc := ⟨.hbm, 119, rfl⟩
abbrev main_call3_v0 : Ref sig .tc := ⟨.hbm, 120, rfl⟩
abbrev main_call3_v1 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_c_22 : Ref sig .tc := ⟨.hbm, 130, rfl⟩
abbrev main_v80 : Ref sig .tc := ⟨.hbm, 131, rfl⟩
abbrev main_v81 : Ref sig .tc := ⟨.hbm, 132, rfl⟩
abbrev main_c_23 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_24 : Ref sig .tc := ⟨.hbm, 139, rfl⟩
abbrev main_v87 : Ref sig .tc := ⟨.hbm, 140, rfl⟩
abbrev main_v88 : Ref sig .tc := ⟨.hbm, 141, rfl⟩
abbrev main_c_25 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S400000 : S_.BroadcastsInDim S400000 (![] : Fin 0 → Fin S400000.rank)
  bcast_S400000_S400000x1_0 : S400000.BroadcastsInDim S400000x1 (![0] : Fin 1 → Fin S400000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S400000x1_S400000 : S400000x1.ShapeCasts S400000
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x128_S128x256_S2000x256_1_0_0_1_n_n_wf : DotDims.WF S2000x128 S128x256 S2000x256 [1] [0] [0] [1] [] []
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x128_S2000x128_1_0_0_1_n_n_wf : DotDims.WF S2000x256 S256x128 S2000x128 [1] [0] [0] [1] [] []
  gather_S100000x128_S400000x1_S400000x128_1_0_n_n_0_1_1128_wf : GatherDims.WF S100000x128 S400000x1 S400000x128 [1] [0] [] [0] [] 1 ![1, 128]
  gather_S50000x128_S400000x1_S400000x128_1_0_n_n_0_1_1128_wf : GatherDims.WF S50000x128 S400000x1 S400000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S100000x256.size a
  hwx3_2 : ∀ i : grid3.Coords, EltTy.bits .f32 = 32 ∨ (Rect.block (s := S100000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S400000x128.size a
  hwx4_0 : ∀ i : grid4.Coords, EltTy.bits .f32 = 32 ∨ (Rect.block (s := S400000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S400000x128.size a
  hwx4_1 : ∀ i : grid4.Coords, EltTy.bits .f32 = 32 ∨ (Rect.block (s := S400000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S400000x1.size a
  hwx4_2 : ∀ i : grid4.Coords, EltTy.bits .f32 = 32 ∨ (Rect.block (s := S400000x1) S4000x1.size (cc4_transform_2 i) (hinb4_2 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v86) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S800000 : Shape := ⟨1, ![800000]⟩
abbrev S400000 : Shape := ⟨1, ![400000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S50000x256 : Shape := ⟨2, ![50000, 256]⟩
abbrev S1x256 : Shape := ⟨2, ![1, 256]⟩
abbrev S100000x256 : Shape := ⟨2, ![100000, 256]⟩
abbrev S800000x256 : Shape := ⟨2, ![800000, 256]⟩
abbrev S1x128 : Shape := ⟨2, ![1, 128]⟩
abbrev S400000x1 : Shape := ⟨2, ![400000, 1]⟩
abbrev S400000x128 : Shape := ⟨2, ![400000, 128]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S50000x128, .f32⟩
  | 2 => ⟨S800000, .i32⟩
  | 3 => ⟨S800000, .i32⟩
  | 4 => ⟨S400000, .i32⟩
  | 5 => ⟨S400000, .i32⟩
  | 6 => ⟨S128x256, .f32⟩
  | 7 => ⟨S128x256, .f32⟩
  | 8 => ⟨S256, .f32⟩
  | 9 => ⟨S128x256, .f32⟩
  | 10 => ⟨S128x256, .f32⟩
  | 11 => ⟨S256, .f32⟩
  | 12 => ⟨S256x128, .f32⟩
  | 13 => ⟨S256x128, .f32⟩
  | 14 => ⟨S128, .f32⟩
  | 15 => ⟨S256x128, .f32⟩
  | 16 => ⟨S256x128, .f32⟩
  | 17 => ⟨S128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S100000x128, .f32⟩
  | 55 => ⟨S800000x1, .i32⟩
  | 56 => ⟨S100000x128, .f32⟩
  | 57 => ⟨S_, .f32⟩
  | 58 => ⟨S800000, .f32⟩
  | 59 => ⟨S_, .f32⟩
  | 60 => ⟨S100000, .f32⟩
  | 61 => ⟨S800000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S100000x256, .f32⟩
  | 80 => ⟨S100000x256, .f32⟩
  | 81 => ⟨S100000x256, .f32⟩
  | 82 => ⟨S1x256, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x256, .f32⟩
  | 123 => ⟨S_, .f32⟩
  | 124 => ⟨S100000x256, .f32⟩
  | 125 => ⟨S800000x1, .i32⟩
  | 126 => ⟨S100000x256, .f32⟩
  | 127 => ⟨S_, .f32⟩
  | _ => ⟨S100000x128, .f32⟩

abbrev hbmTy0_1 (i : Nat) : BufTy := match i % 128 with
  | 0 => ⟨S800000, .f32⟩
  | 1 => ⟨S_, .f32⟩
  | 2 => ⟨S100000, .f32⟩
  | 3 => ⟨S800000x1, .i32⟩
  | 4 => ⟨S100000, .f32⟩
  | 5 => ⟨S_, .f32⟩
  | 6 => ⟨S_, .f32⟩
  | 7 => ⟨S100000, .f32⟩
  | 8 => ⟨S100000, .f32⟩
  | 9 => ⟨S100000x1, .f32⟩
  | 10 => ⟨S100000x256, .f32⟩
  | 11 => ⟨S100000x256, .f32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S400000x128, .f32⟩
  | 43 => ⟨S_, .f32⟩
  | 44 => ⟨S400000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call2_cst : Ref sig .tc := ⟨.hbm, 76, rfl⟩
abbrev main_call2_v0 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call3_cst : Ref sig .tc := ⟨.hbm, 85, rfl⟩
abbrev main_call3_v0 : Ref sig .tc := ⟨.hbm, 86, rfl⟩
abbrev main_v49 : Ref sig .tc := ⟨.hbm, 87, rfl⟩
abbrev main_c_10 : Ref sig .tc := ⟨.hbm, 88, rfl⟩
abbrev main_v50 : Ref sig .tc := ⟨.hbm, 89, rfl⟩
abbrev main_v51 : Ref sig .tc := ⟨.hbm, 90, rfl⟩
abbrev main_c_11 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_12 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_13 : Ref sig .tc := ⟨.hbm, 101, rfl⟩
abbrev main_v60 : Ref sig .tc := ⟨.hbm, 102, rfl⟩
abbrev main_cst_14 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_15 : Ref sig .tc := ⟨.hbm, 107, rfl⟩
abbrev main_call4_v0 : Ref sig .tc := ⟨.hbm, 108, rfl⟩
abbrev main_call4_v1 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_c_16 : Ref sig .tc := ⟨.hbm, 114, rfl⟩
abbrev main_v68 : Ref sig .tc := ⟨.hbm, 115, rfl⟩
abbrev main_v69 : Ref sig .tc := ⟨.hbm, 116, rfl⟩
abbrev main_c_17 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_18 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_19 : Ref sig .tc := ⟨.hbm, 127, rfl⟩
abbrev main_v78 : Ref sig .tc := ⟨.hbm, 128, rfl⟩
abbrev main_cst_20 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_21 : Ref sig .tc := ⟨.hbm, 133, rfl⟩
abbrev main_call5_v0 : Ref sig .tc := ⟨.hbm, 134, rfl⟩
abbrev main_call5_v1 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_22 : Ref sig .tc := ⟨.hbm, 152, rfl⟩
abbrev main_v98 : Ref sig .tc := ⟨.hbm, 153, rfl⟩
abbrev main_v99 : Ref sig .tc := ⟨.hbm, 154, rfl⟩
abbrev main_c_23 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_24 : Ref sig .tc := ⟨.hbm, 161, rfl⟩
abbrev main_v105 : Ref sig .tc := ⟨.hbm, 162, rfl⟩
abbrev main_v106 : Ref sig .tc := ⟨.hbm, 163, rfl⟩
abbrev main_c_25 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_26 : Ref sig .tc := ⟨.hbm, 171, rfl⟩
abbrev main_v113 : Ref sig .tc := ⟨.hbm, 172, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S50000x1_S50000x256_0_1 : S50000x1.BroadcastsInDim S50000x256 (![0, 1] : Fin 2 → Fin S50000x256.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S100000x128_0_1 : S1x128.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  reducesTo_S400000x128_S400000_d1 : S400000x128.ReducesTo [1] S400000
  h_S_ : 0 < S_.numel
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S50000x128_S128x256_S50000x256_1_0_0_1_n_n_wf : DotDims.WF S50000x128 S128x256 S50000x256 [1] [0] [0] [1] [] []
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S50000x256_S256x128_S50000x128_1_0_0_1_n_n_wf : DotDims.WF S50000x256 S256x128 S50000x128 [1] [0] [0] [1] [] []
  dot_S100000x256_S256x128_S100000x128_1_0_0_1_n_n_wf : DotDims.WF S100000x256 S256x128 S100000x128 [1] [0] [0] [1] [] []
  gather_S100000x128_S400000x1_S400000x128_1_0_n_n_0_1_1128_wf : GatherDims.WF S100000x128 S400000x1 S400000x128 [1] [0] [] [0] [] 1 ![1, 128]
  gather_S50000x128_S400000x1_S400000x128_1_0_n_n_0_1_1128_wf : GatherDims.WF S50000x128 S400000x1 S400000x128 [1] [0] [] [0] [] 1 ![1, 128]

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf

class Facts : Prop extends Facts₀ where

variable [Facts]
-- ==== Proof.KernelRun.lean ====
/-
  The idealized kernel's run with its result NAMED. The program is five grid launches among stretches of host
  operations; the buffers' contents at each boundary are a fold from the launch memory (`Gen.W0` … `Gen.W19`:
  a stretch applies its operations, a launch leaves each of its output arrays at what its grid points wrote back
  and every other buffer alone). Every weakly fair execution terminates with EVERY unscoped buffer at the end
  of that fold; here the result buffer is read off it beside the eighteen arguments, which end as launched.
-/
import proofs.«165792_j41575283425666_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v95) = W19 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v95 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c)⟩)

end Cert.KernelIdeal.RunValue

end
-- ==== Proof.Glue.lean ====
/-
  The idealized kernel's buffers at the boundaries between its launches, as the reference's own stages.
  Between the launches the program applies, on the host, the same operations the reference applies: wrap negative
  edge indices, gather rows by edge, scatter-add them by edge, count edges by scatter-adding ones, clamp the counts below
  at one, divide. Read back through the stretches of host operations from a launch's entry to the previous launch's
  exit (or to the launch memory), a buffer's contents are that composition of the buffers it started from; the
  reference's stage of the same name is the same composition of its arguments. The two are spelt with records
  declared once per program; those records are equal, field by field.
  A gather or a scatter-add over 800000 edges is never opened here: every comparison is between terms that agree
  symbol by symbol once the records are identified.
-/
import proofs.«165792_j41575283425666_1_alg».proof.Proof.Gen.KernelIdeal.Frame
import proofs.«165792_j41575283425666_1_alg».proof.Proof.Gen.ReferenceIdeal.Read

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

/-! ## The gather and scatter records of the two programs are the same records -/

theorem rec0 : Cert.KernelIdeal.gather_S100000x128_S800000x1_S800000x128_1_0_n_n_0_1_1128 = Cert.ReferenceIdeal.gather_S100000x128_S800000x1_S800000x128_1_0_n_n_0_1_1128 := rfl
theorem rec1 : Cert.KernelIdeal.gather_S50000x128_S800000x1_S800000x128_1_0_n_n_0_1_1128 = Cert.ReferenceIdeal.gather_S50000x128_S800000x1_S800000x128_1_0_n_n_0_1_1128 := rfl
theorem rec2 : Cert.KernelIdeal.gather_S100000x256_S800000x1_S800000x256_1_0_n_n_0_1_1256 = Cert.ReferenceIdeal.gather_S100000x256_S800000x1_S800000x256_1_0_n_n_0_1_1256 := rfl
theorem rec3 : Cert.KernelIdeal.gather_S50000x256_S800000x1_S800000x256_1_0_n_n_0_1_1256 = Cert.ReferenceIdeal.gather_S50000x256_S800000x1_S800000x256_1_0_n_n_0_1_1256 := rfl
theorem rec4 : Cert.KernelIdeal.gather_S100000x128_S400000x1_S400000x128_1_0_n_n_0_1_1128 = Cert.ReferenceIdeal.gather_S100000x128_S400000x1_S400000x128_1_0_n_n_0_1_1128 := rfl
theorem rec5 : Cert.KernelIdeal.gather_S50000x128_S400000x1_S400000x128_1_0_n_n_0_1_1128 = Cert.ReferenceIdeal.gather_S50000x128_S400000x1_S400000x128_1_0_n_n_0_1_1128 := rfl
theorem rec6 : Cert.KernelIdeal.scatter_S50000x128_S800000x1_S800000x128_1_0_0_1 = Cert.ReferenceIdeal.scatter_S50000x128_S800000x1_S800000x128_1_0_0_1 := rfl
theorem rec7 : Cert.KernelIdeal.scatter_S50000_S800000x1_S800000_n_0_0_1 = Cert.ReferenceIdeal.scatter_S50000_S800000x1_S800000_n_0_0_1 := rfl
theorem rec8 : Cert.KernelIdeal.scatter_S100000x128_S800000x1_S800000x128_1_0_0_1 = Cert.ReferenceIdeal.scatter_S100000x128_S800000x1_S800000x128_1_0_0_1 := rfl
theorem rec9 : Cert.KernelIdeal.scatter_S100000_S800000x1_S800000_n_0_0_1 = Cert.ReferenceIdeal.scatter_S100000_S800000x1_S800000_n_0_0_1 := rfl
theorem rec10 : Cert.KernelIdeal.scatter_S50000x256_S800000x1_S800000x256_1_0_0_1 = Cert.ReferenceIdeal.scatter_S50000x256_S800000x1_S800000x256_1_0_0_1 := rfl
theorem rec11 : Cert.KernelIdeal.scatter_S100000x256_S800000x1_S800000x256_1_0_0_1 = Cert.ReferenceIdeal.scatter_S100000x256_S800000x1_S800000x256_1_0_0_1 := rfl

/-! ## The four inlined clamps, over any buffer contents -/

/-- The clamp of the edge counts inlined as stretch `hostOps0_1`, over ANY buffer contents: max(the constant spread, the counts). -/
theorem clamp0 (V : Valuation τ sig (Elt Ideal)) :
    StableHlo.after hostOps0_1 V (Proc.devRef .tc main_v14)
      = maximumf (F := Ideal) (s := S50000) (φ := .f32) (broadcastInDim S50000 ![] bcast_S_S50000 (id (V (Proc.devRef .tc main_cst_3)))) (V (Proc.devRef .tc main_v13)) := by
  simp only [hostOps0_1]
  after_results_simp
  rfl
/-- The scatter-add result is not one of the three buffers that stretch writes. -/
theorem clamp0_keeps (V : Valuation τ sig (Elt Ideal)) :
    StableHlo.after hostOps0_1 V (Proc.devRef .tc main_v9) = V (Proc.devRef .tc main_v9) := by
  simp only [hostOps0_1]
  after_results_simp

/-- The clamp of the edge counts inlined as stretch `hostOps0_3`, over ANY buffer contents: max(the constant spread, the counts). -/
theorem clamp1 (V : Valuation τ sig (Elt Ideal)) :
    StableHlo.after hostOps0_3 V (Proc.devRef .tc main_v32)
      = maximumf (F := Ideal) (s := S100000) (φ := .f32) (broadcastInDim S100000 ![] bcast_S_S100000 (id (V (Proc.devRef .tc main_cst_9)))) (V (Proc.devRef .tc main_v31)) := by
  simp only [hostOps0_3]
  after_results_simp
  rfl
/-- The scatter-add result is not one of the three buffers that stretch writes. -/
theorem clamp1_keeps (V : Valuation τ sig (Elt Ideal)) :
    StableHlo.after hostOps0_3 V (Proc.devRef .tc main_v27) = V (Proc.devRef .tc main_v27) := by
  simp only [hostOps0_3]
  after_results_simp

/-- The clamp of the edge counts inlined as stretch `hostOps2_1`, over ANY buffer contents: max(the constant spread, the counts). -/
theorem clamp2 (V : Valuation τ sig (Elt Ideal)) :
    StableHlo.after hostOps2_1 V (Proc.devRef .tc main_v54)
      = maximumf (F := Ideal) (s := S50000) (φ := .f32) (broadcastInDim S50000 ![] bcast_S_S50000 (id (V (Proc.devRef .tc main_cst_15)))) (V (Proc.devRef .tc main_v53)) := by
  simp only [hostOps2_1]
  after_results_simp
  rfl
/-- The scatter-add result is not one of the three buffers that stretch writes. -/
theorem clamp2_keeps (V : Valuation τ sig (Elt Ideal)) :
    StableHlo.after hostOps2_1 V (Proc.devRef .tc main_v49) = V (Proc.devRef .tc main_v49) := by
  simp only [hostOps2_1]
  after_results_simp

/-- The clamp of the edge counts inlined as stretch `hostOps2_3`, over ANY buffer contents: max(the constant spread, the counts). -/
theorem clamp3 (V : Valuation τ sig (Elt Ideal)) :
    StableHlo.after hostOps2_3 V (Proc.devRef .tc main_v72)
      = maximumf (F := Ideal) (s := S100000) (φ := .f32) (broadcastInDim S100000 ![] bcast_S_S100000 (id (V (Proc.devRef .tc main_cst_21)))) (V (Proc.devRef .tc main_v71)) := by
  simp only [hostOps2_3]
  after_results_simp
  rfl
/-- The scatter-add result is not one of the three buffers that stretch writes. -/
theorem clamp3_keeps (V : Valuation τ sig (Elt Ideal)) :
    StableHlo.after hostOps2_3 V (Proc.devRef .tc main_v67) = V (Proc.devRef .tc main_v67) := by
  simp only [hostOps2_3]
  after_results_simp

/-! ## Walking a buffer back to where it was last written -/

/-- Past a launch that does not have the buffer among its arrays. -/
macro "past_launch" : tactic => `(tactic| first
  | (rw [W18_of_ne]; rotate_left; decide)
  | (rw [W16_of_ne]; rotate_left; decide)
  | (rw [W14_of_ne]; rotate_left; decide)
  | (rw [W8_of_ne]; rotate_left; decide)
  | (rw [W6_of_ne]; rotate_left; decide))

/-- Through stretches of host operations, down to the next launch's exit or the launch memory. -/
macro "through_host" : tactic => `(tactic| (
  dsimp only [W19, W17, W15, W13, W12, W11, W10, W9, W7, W5, W4, W3, W2, W1]
  simp only [hostOps0, hostOps0_1, hostOps0_2, hostOps0_3, hostOps0_4, hostOps1, hostOps2, hostOps2_1, hostOps2_2, hostOps2_3, hostOps2_4, hostOps3, hostOps4, hostOps5]
  after_results_simp))

/-- All the way. -/
macro "walk_back" : tactic => `(tactic| repeat (first | past_launch | through_host))

variable (m : (ℓ : Loc nD τ sig) → Buf (Elt Ideal) ℓ) (ρ : Dev nD → PrngReg)

/-! ## Launch 0's entry -/

/-- agg_i, the mean over incoming edges of the users' features. -/
theorem agg_i (c : Dev nD) : W5 m ρ c (Proc.devRef .tc main_v17) = Cert.ReferenceIdeal.Read.val_main_v17 (F := Ideal) (m ((c : Thread nD τ).loc main_arg0)) (m ((c : Thread nD τ).loc main_arg2)) (m ((c : Thread nD τ).loc main_arg3)) := by
  dsimp only [W5, W4, W3]
  generalize hV : W2 m ρ c = V2
  simp only [hostOps0_4, hostOps0_3, hostOps0_2]
  after_results_simp
  subst hV
  rw [show W2 m ρ c (Proc.devRef .tc main_v14) = _ from clamp0 (W1 m ρ c), show W2 m ρ c (Proc.devRef .tc main_v9) = _ from clamp0_keeps (W1 m ρ c)]
  dsimp only [W1]
  simp only [hostOps0]
  after_results_simp
  simp only [Cert.ReferenceIdeal.Read.val_main_v17, Cert.ReferenceIdeal.Read.val_main_v9, Cert.ReferenceIdeal.Read.val_main_v7, Cert.ReferenceIdeal.Read.val_main_cst, Cert.ReferenceIdeal.Read.val_main_v8, Cert.ReferenceIdeal.Read.val_main_v6, Cert.ReferenceIdeal.Read.val_main_v5, Cert.ReferenceIdeal.Read.val_main_v4, Cert.ReferenceIdeal.Read.val_main_v1, Cert.ReferenceIdeal.Read.val_main_v0, Cert.ReferenceIdeal.Read.val_main_c, Cert.ReferenceIdeal.Read.val_main_v3, Cert.ReferenceIdeal.Read.val_main_v2, Cert.ReferenceIdeal.Read.val_main_c_0, Cert.ReferenceIdeal.Read.val_main_v16, Cert.ReferenceIdeal.Read.val_main_v15, Cert.ReferenceIdeal.Read.val_main_v14, Cert.ReferenceIdeal.Read.val_main_call0_v1, Cert.ReferenceIdeal.Read.val_main_call0_v0, Cert.ReferenceIdeal.Read.val_main_cst_3, Cert.ReferenceIdeal.Read.val_main_v13, Cert.ReferenceIdeal.Read.val_main_v11, Cert.ReferenceIdeal.Read.val_main_cst_2, Cert.ReferenceIdeal.Read.val_main_v12, Cert.ReferenceIdeal.Read.val_main_v10, Cert.ReferenceIdeal.Read.val_main_cst_1]
  simp only [rec0, rec1, rec2, rec3, rec4, rec5, rec6, rec7, rec8, rec9, rec10, rec11]

/-- agg_u, the mean over incoming edges of the items' features. -/
theorem agg_u (c : Dev nD) : W5 m ρ c (Proc.devRef .tc main_v35) = Cert.ReferenceIdeal.Read.val_main_v35 (F := Ideal) (m ((c : Thread nD τ).loc main_arg1)) (m ((c : Thread nD τ).loc main_arg2)) (m ((c : Thread nD τ).loc main_arg3)) := by
  dsimp only [W5]
  generalize hV : W4 m ρ c = V4
  simp only [hostOps0_4]
  after_results_simp
  subst hV
  rw [show W4 m ρ c (Proc.devRef .tc main_v32) = _ from clamp1 (W3 m ρ c), show W4 m ρ c (Proc.devRef .tc main_v27) = _ from clamp1_keeps (W3 m ρ c)]
  dsimp only [W3, W2, W1]
  simp only [hostOps0_2, hostOps0_1, hostOps0]
  after_results_simp
  simp only [Cert.ReferenceIdeal.Read.val_main_v35, Cert.ReferenceIdeal.Read.val_main_v27, Cert.ReferenceIdeal.Read.val_main_v25, Cert.ReferenceIdeal.Read.val_main_cst_6, Cert.ReferenceIdeal.Read.val_main_v26, Cert.ReferenceIdeal.Read.val_main_v24, Cert.ReferenceIdeal.Read.val_main_v23, Cert.ReferenceIdeal.Read.val_main_v22, Cert.ReferenceIdeal.Read.val_main_v19, Cert.ReferenceIdeal.Read.val_main_v18, Cert.ReferenceIdeal.Read.val_main_c_4, Cert.ReferenceIdeal.Read.val_main_v21, Cert.ReferenceIdeal.Read.val_main_v20, Cert.ReferenceIdeal.Read.val_main_c_5, Cert.ReferenceIdeal.Read.val_main_v34, Cert.ReferenceIdeal.Read.val_main_v33, Cert.ReferenceIdeal.Read.val_main_v32, Cert.ReferenceIdeal.Read.val_main_call1_v1, Cert.ReferenceIdeal.Read.val_main_call1_v0, Cert.ReferenceIdeal.Read.val_main_cst_9, Cert.ReferenceIdeal.Read.val_main_v31, Cert.ReferenceIdeal.Read.val_main_v29, Cert.ReferenceIdeal.Read.val_main_cst_8, Cert.ReferenceIdeal.Read.val_main_v30, Cert.ReferenceIdeal.Read.val_main_v28, Cert.ReferenceIdeal.Read.val_main_cst_7]
  simp only [rec0, rec1, rec2, rec3, rec4, rec5, rec6, rec7, rec8, rec9, rec10, rec11]

/-! ## The arguments, where a launch or a later stretch reads them: nothing has written them -/

theorem arg6_at5 (c : Dev nD) : W5 m ρ c (Proc.devRef .tc main_arg6) = m ((c : Thread nD τ).loc main_arg6) := by walk_back
theorem arg1_at5 (c : Dev nD) : W5 m ρ c (Proc.devRef .tc main_arg1) = m ((c : Thread nD τ).loc main_arg1) := by walk_back
theorem arg7_at5 (c : Dev nD) : W5 m ρ c (Proc.devRef .tc main_arg7) = m ((c : Thread nD τ).loc main_arg7) := by walk_back
theorem arg9_at7 (c : Dev nD) : W7 m ρ c (Proc.devRef .tc main_arg9) = m ((c : Thread nD τ).loc main_arg9) := by walk_back
theorem arg0_at7 (c : Dev nD) : W7 m ρ c (Proc.devRef .tc main_arg0) = m ((c : Thread nD τ).loc main_arg0) := by walk_back
theorem arg10_at7 (c : Dev nD) : W7 m ρ c (Proc.devRef .tc main_arg10) = m ((c : Thread nD τ).loc main_arg10) := by walk_back
theorem arg2_at8 (c : Dev nD) : W8 m ρ c (Proc.devRef .tc main_arg2) = m ((c : Thread nD τ).loc main_arg2) := by walk_back
theorem arg3_at8 (c : Dev nD) : W8 m ρ c (Proc.devRef .tc main_arg3) = m ((c : Thread nD τ).loc main_arg3) := by walk_back
theorem arg12_at13 (c : Dev nD) : W13 m ρ c (Proc.devRef .tc main_arg12) = m ((c : Thread nD τ).loc main_arg12) := by walk_back
theorem arg13_at13 (c : Dev nD) : W13 m ρ c (Proc.devRef .tc main_arg13) = m ((c : Thread nD τ).loc main_arg13) := by walk_back
theorem arg15_at15 (c : Dev nD) : W15 m ρ c (Proc.devRef .tc main_arg15) = m ((c : Thread nD τ).loc main_arg15) := by walk_back
theorem arg16_at15 (c : Dev nD) : W15 m ρ c (Proc.devRef .tc main_arg16) = m ((c : Thread nD τ).loc main_arg16) := by walk_back
theorem arg4_at16 (c : Dev nD) : W16 m ρ c (Proc.devRef .tc main_arg4) = m ((c : Thread nD τ).loc main_arg4) := by walk_back
theorem arg5_at16 (c : Dev nD) : W16 m ρ c (Proc.devRef .tc main_arg5) = m ((c : Thread nD τ).loc main_arg5) := by walk_back

/-! ## The bias vectors as rows [1, C] -/

open Idealize.ShloMosaic.ValueIdx in
/-- A vector of 256 reshaped to a row, read at (0, q): the vector's entry q. -/
theorem row256 (v : S256.Idx → EReal) (z : Fin 1) (q : Fin 256) :
    shapeCast S1x256 v shapeCasts_S256_S1x256 (ix2 z q) = v (ix1 q) :=
  shapeCast_apply v shapeCasts_S256_S1x256 (ix2 z q) (ix1 q) (by
    rw [Shape.rowMajor_val_one, Shape.rowMajor_val_two]
    show q.val = z.val * 256 + q.val
    have hz := z.isLt
    omega)
open Idealize.ShloMosaic.ValueIdx in
/-- A vector of 128 reshaped to a row, read at (0, q): the vector's entry q. -/
theorem row128 (v : S128.Idx → EReal) (z : Fin 1) (q : Fin 128) :
    shapeCast S1x128 v shapeCasts_S128_S1x128 (ix2 z q) = v (ix1 q) :=
  shapeCast_apply v shapeCasts_S128_S1x128 (ix2 z q) (ix1 q) (by
    rw [Shape.rowMajor_val_one, Shape.rowMajor_val_two]
    show q.val = z.val * 128 + q.val
    have hz := z.isLt
    omega)

open Idealize.ShloMosaic.ValueIdx in
theorem bias0 (c : Dev nD) (q : Fin 256) :
    (W5 m ρ c (Proc.devRef .tc main_v36) : S1x256.Idx → EReal) (ix2 (0 : Fin 1) q) = (m ((c : Thread nD τ).loc main_arg8) : S256.Idx → EReal) (ix1 q) := by
  have h : W5 m ρ c (Proc.devRef .tc main_v36) = fun i => shapeCast S1x256 (m ((c : Thread nD τ).loc main_arg8)) shapeCasts_S256_S1x256 i := by
    walk_back
    try rfl
  rw [h]; exact row256 _ 0 q
open Idealize.ShloMosaic.ValueIdx in
theorem bias1 (c : Dev nD) (q : Fin 256) :
    (W7 m ρ c (Proc.devRef .tc main_v38) : S1x256.Idx → EReal) (ix2 (0 : Fin 1) q) = (m ((c : Thread nD τ).loc main_arg11) : S256.Idx → EReal) (ix1 q) := by
  have h : W7 m ρ c (Proc.devRef .tc main_v38) = fun i => shapeCast S1x256 (m ((c : Thread nD τ).loc main_arg11)) shapeCasts_S256_S1x256 i := by
    walk_back
    try rfl
  rw [h]; exact row256 _ 0 q
open Idealize.ShloMosaic.ValueIdx in
theorem bias2 (c : Dev nD) (q : Fin 128) :
    (W13 m ρ c (Proc.devRef .tc main_v76) : S1x128.Idx → EReal) (ix2 (0 : Fin 1) q) = (m ((c : Thread nD τ).loc main_arg14) : S128.Idx → EReal) (ix1 q) := by
  have h : W13 m ρ c (Proc.devRef .tc main_v76) = fun i => shapeCast S1x128 (m ((c : Thread nD τ).loc main_arg14)) shapeCasts_S128_S1x128 i := by
    walk_back
    try rfl
  rw [h]; exact row128 _ 0 q
open Idealize.ShloMosaic.ValueIdx in
theorem bias3 (c : Dev nD) (q : Fin 128) :
    (W15 m ρ c (Proc.devRef .tc main_v78) : S1x128.Idx → EReal) (ix2 (0 : Fin 1) q) = (m ((c : Thread nD τ).loc main_arg17) : S128.Idx → EReal) (ix1 q) := by
  have h : W15 m ρ c (Proc.devRef .tc main_v78) = fun i => shapeCast S1x128 (m ((c : Thread nD τ).loc main_arg17)) shapeCasts_S128_S1x128 i := by
    walk_back
    try rfl
  rw [h]; exact row128 _ 0 q

/-! ## Launch 1's entry -/

/-- agg_u is still there: the one reshape between the launches and launch 0 leave it alone. -/
theorem agg_u_at7 (c : Dev nD) : W7 m ρ c (Proc.devRef .tc main_v35) = Cert.ReferenceIdeal.Read.val_main_v35 (F := Ideal) (m ((c : Thread nD τ).loc main_arg1)) (m ((c : Thread nD τ).loc main_arg2)) (m ((c : Thread nD τ).loc main_arg3)) := by
  dsimp only [W7]
  simp only [hostOps1]
  after_results_simp
  rw [W6_of_ne m ρ c main_v35 (by decide)]
  exact agg_u m ρ c

/-! ## Launch 2's entry, from launch 1's exit -/

/-- A buffer that neither launch 1 nor the reshape before it touches: launch 0's result. -/
theorem h_item_at8 (c : Dev nD) : W8 m ρ c (Proc.devRef .tc main_v37) = W6 m ρ c (Proc.devRef .tc main_v37) := by walk_back

/-- agg_i2, the mean over incoming edges of the users' hidden rows, given launch 1's result. -/
theorem agg_i2 (c : Dev nD)
    (hu : W8 m ρ c (Proc.devRef .tc main_v39) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11))) :
    W13 m ρ c (Proc.devRef .tc main_v57) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := by
  dsimp only [W13, W12, W11]
  generalize hV : W10 m ρ c = V10
  simp only [hostOps2_4, hostOps2_3, hostOps2_2]
  after_results_simp
  subst hV
  rw [show W10 m ρ c (Proc.devRef .tc main_v54) = _ from clamp2 (W9 m ρ c), show W10 m ρ c (Proc.devRef .tc main_v49) = _ from clamp2_keeps (W9 m ρ c)]
  dsimp only [W9]
  simp only [hostOps2]
  after_results_simp
  rw [hu, arg2_at8 m ρ c, arg3_at8 m ρ c]
  simp only [Cert.ReferenceIdeal.Read.val_main_v67, Cert.ReferenceIdeal.Read.val_main_v59, Cert.ReferenceIdeal.Read.val_main_v57, Cert.ReferenceIdeal.Read.val_main_cst_12, Cert.ReferenceIdeal.Read.val_main_v58, Cert.ReferenceIdeal.Read.val_main_v56, Cert.ReferenceIdeal.Read.val_main_v55, Cert.ReferenceIdeal.Read.val_main_v54, Cert.ReferenceIdeal.Read.val_main_v51, Cert.ReferenceIdeal.Read.val_main_v50, Cert.ReferenceIdeal.Read.val_main_c_10, Cert.ReferenceIdeal.Read.val_main_v53, Cert.ReferenceIdeal.Read.val_main_v52, Cert.ReferenceIdeal.Read.val_main_c_11, Cert.ReferenceIdeal.Read.val_main_v66, Cert.ReferenceIdeal.Read.val_main_v65, Cert.ReferenceIdeal.Read.val_main_v64, Cert.ReferenceIdeal.Read.val_main_call4_v1, Cert.ReferenceIdeal.Read.val_main_call4_v0, Cert.ReferenceIdeal.Read.val_main_cst_15, Cert.ReferenceIdeal.Read.val_main_v63, Cert.ReferenceIdeal.Read.val_main_v61, Cert.ReferenceIdeal.Read.val_main_cst_14, Cert.ReferenceIdeal.Read.val_main_v62, Cert.ReferenceIdeal.Read.val_main_v60, Cert.ReferenceIdeal.Read.val_main_cst_13]
  simp only [rec0, rec1, rec2, rec3, rec4, rec5, rec6, rec7, rec8, rec9, rec10, rec11]

/-- agg_u2, the mean over incoming edges of the items' hidden rows, given launch 0's result. -/
theorem agg_u2 (c : Dev nD)
    (hi : W8 m ρ c (Proc.devRef .tc main_v37) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) :
    W13 m ρ c (Proc.devRef .tc main_v75) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  dsimp only [W13]
  generalize hV : W12 m ρ c = V12
  simp only [hostOps2_4]
  after_results_simp
  subst hV
  rw [show W12 m ρ c (Proc.devRef .tc main_v72) = _ from clamp3 (W11 m ρ c), show W12 m ρ c (Proc.devRef .tc main_v67) = _ from clamp3_keeps (W11 m ρ c)]
  dsimp only [W11, W10, W9]
  simp only [hostOps2_2, hostOps2_1, hostOps2]
  after_results_simp
  rw [hi, arg2_at8 m ρ c, arg3_at8 m ρ c]
  simp only [Cert.ReferenceIdeal.Read.val_main_v85, Cert.ReferenceIdeal.Read.val_main_v77, Cert.ReferenceIdeal.Read.val_main_v75, Cert.ReferenceIdeal.Read.val_main_cst_18, Cert.ReferenceIdeal.Read.val_main_v76, Cert.ReferenceIdeal.Read.val_main_v74, Cert.ReferenceIdeal.Read.val_main_v73, Cert.ReferenceIdeal.Read.val_main_v72, Cert.ReferenceIdeal.Read.val_main_v69, Cert.ReferenceIdeal.Read.val_main_v68, Cert.ReferenceIdeal.Read.val_main_c_16, Cert.ReferenceIdeal.Read.val_main_v71, Cert.ReferenceIdeal.Read.val_main_v70, Cert.ReferenceIdeal.Read.val_main_c_17, Cert.ReferenceIdeal.Read.val_main_v84, Cert.ReferenceIdeal.Read.val_main_v83, Cert.ReferenceIdeal.Read.val_main_v82, Cert.ReferenceIdeal.Read.val_main_call5_v1, Cert.ReferenceIdeal.Read.val_main_call5_v0, Cert.ReferenceIdeal.Read.val_main_cst_21, Cert.ReferenceIdeal.Read.val_main_v81, Cert.ReferenceIdeal.Read.val_main_v79, Cert.ReferenceIdeal.Read.val_main_cst_20, Cert.ReferenceIdeal.Read.val_main_v80, Cert.ReferenceIdeal.Read.val_main_v78, Cert.ReferenceIdeal.Read.val_main_cst_19]
  simp only [rec0, rec1, rec2, rec3, rec4, rec5, rec6, rec7, rec8, rec9, rec10, rec11]

/-- Launch 0's result is still there at launch 2's entry. -/
theorem h_item_at13 (c : Dev nD) : W13 m ρ c (Proc.devRef .tc main_v37) = W8 m ρ c (Proc.devRef .tc main_v37) := by walk_back
/-- Launch 1's result is still there at launch 2's entry. -/
theorem h_user_at13 (c : Dev nD) : W13 m ρ c (Proc.devRef .tc main_v39) = W8 m ρ c (Proc.devRef .tc main_v39) := by walk_back

/-! ## Launch 3's entry -/

/-- agg_u2 is still there: launch 2 does not have it among its arrays, and the reshape after it writes another buffer. -/
theorem agg_u2_at15 (c : Dev nD) : W15 m ρ c (Proc.devRef .tc main_v75) = W13 m ρ c (Proc.devRef .tc main_v75) := by
  refine Eq.trans ?_ (W14_of_ne m ρ c main_v75 (by decide))
  dsimp only [W15]
  simp only [hostOps3]
  after_results_simp
theorem h_user_at15 (c : Dev nD) : W15 m ρ c (Proc.devRef .tc main_v39) = W8 m ρ c (Proc.devRef .tc main_v39) := by walk_back

/-! ## Launch 4's entry, from launch 3's exit -/

/-- Launch 2's result is still there at launch 3's exit. -/
theorem z_item_at16 (c : Dev nD) : W16 m ρ c (Proc.devRef .tc main_v77) = W14 m ρ c (Proc.devRef .tc main_v77) := by walk_back

/-- The users' embeddings gathered at the label sources, given launch 3's result. -/
theorem zu_gathered (c : Dev nD)
    (hz : W16 m ρ c (Proc.devRef .tc main_v79) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17))) :
    W17 m ρ c (Proc.devRef .tc main_v86) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  dsimp only [W17]
  simp only [hostOps4]
  after_results_simp
  rw [hz, arg4_at16 m ρ c]
  simp only [Cert.ReferenceIdeal.Read.val_main_v104, Cert.ReferenceIdeal.Read.val_main_v103, Cert.ReferenceIdeal.Read.val_main_v102, Cert.ReferenceIdeal.Read.val_main_v99, Cert.ReferenceIdeal.Read.val_main_v98, Cert.ReferenceIdeal.Read.val_main_c_22, Cert.ReferenceIdeal.Read.val_main_v101, Cert.ReferenceIdeal.Read.val_main_v100, Cert.ReferenceIdeal.Read.val_main_c_23]
  simp only [rec0, rec1, rec2, rec3, rec4, rec5, rec6, rec7, rec8, rec9, rec10, rec11]

/-- The items' embeddings gathered at the label destinations, given launch 2's result. -/
theorem zi_gathered (c : Dev nD)
    (hz : W16 m ρ c (Proc.devRef .tc main_v77) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    W17 m ρ c (Proc.devRef .tc main_v93) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  dsimp only [W17]
  simp only [hostOps4]
  after_results_simp
  rw [hz, arg5_at16 m ρ c]
  simp only [Cert.ReferenceIdeal.Read.val_main_v111, Cert.ReferenceIdeal.Read.val_main_v110, Cert.ReferenceIdeal.Read.val_main_v109, Cert.ReferenceIdeal.Read.val_main_v106, Cert.ReferenceIdeal.Read.val_main_v105, Cert.ReferenceIdeal.Read.val_main_c_24, Cert.ReferenceIdeal.Read.val_main_v108, Cert.ReferenceIdeal.Read.val_main_v107, Cert.ReferenceIdeal.Read.val_main_c_25]
  simp only [rec0, rec1, rec2, rec3, rec4, rec5, rec6, rec7, rec8, rec9, rec10, rec11]

end Cert.KernelIdeal.Glue

end
-- ==== Proof.Layer0.lean ====
/-
  Launch 0 of the kernel: the first layer's item side, relu(agg_i · wl1_ui + x_item · wr1_ui + b1_ui).
  The grid has 25 points; point t stages rows 2000·t … 2000·t + 1999 of the two row operands (all 128 columns),
  the two weight matrices and the bias row whole, and writes back rows 2000·t … 2000·t + 1999 of the result (all
  256 columns). Entry (r, q) of a block's result depends only on row r of the two staged row blocks: it is
  Σ_κ a[r, κ]·wl[κ, q] + Σ_κ b[r, κ]·wr[κ, q] + bias[0, q], clamped below at 0 — each matrix product taken into a zero accumulator, the
  narrowing of the operands to bf16 the identity on extended reals. The 25 row bands tile the 50000 rows, so after
  the launch the result array is that same expression of the whole operand arrays at every index.
-/
import proofs.«165792_j41575283425666_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The layer as one function of whole arrays -/

/-- Entry (r, q) of the layer's result from the whole operand arrays. -/
def entry (A : S50000x128.Idx → EReal) (Wl : S128x256.Idx → EReal) (B : S50000x128.Idx → EReal) (Wr : S128x256.Idx → EReal)
    (b : S1x256.Idx → EReal) (r : Fin 50000) (q : Fin 256) : EReal :=
  max ((∑ κ : Fin 128, A (ix2 r κ) * Wl (ix2 κ q)) + (∑ κ : Fin 128, B (ix2 r κ) * Wr (ix2 κ q)) + b (ix2 0 q)) (Ideal.ofBits .f32 0x00000000#32)

/-- The layer's result array. -/
def G (A : S50000x128.Idx → EReal) (Wl : S128x256.Idx → EReal) (B : S50000x128.Idx → EReal) (Wr : S128x256.Idx → EReal)
    (b : S1x256.Idx → EReal) : S50000x256.Idx → EReal :=
  fun i => entry A Wl B Wr b (i 0) (i 1)

/-! ## One block's arithmetic at an entry -/

theorem lhs_row (j : S2000x256.Idx) (u : dot_S2000x128_S128x256_S2000x256_1_0_0_1_n_n.contr.Idx) : (dot_S2000x128_S128x256_S2000x256_1_0_0_1_n_n.lhsIdx j u 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_col (j : S2000x256.Idx) (u : dot_S2000x128_S128x256_S2000x256_1_0_0_1_n_n.contr.Idx) : (dot_S2000x128_S128x256_S2000x256_1_0_0_1_n_n.lhsIdx j u 1).val = (u ⟨0, by decide⟩).val :=
  dot_S2000x128_S128x256_S2000x256_1_0_0_1_n_n.lhsIdx_val_of_single rfl j u
theorem rhs_row (j : S2000x256.Idx) (u : dot_S2000x128_S128x256_S2000x256_1_0_0_1_n_n.contr.Idx) : (dot_S2000x128_S128x256_S2000x256_1_0_0_1_n_n.rhsIdx j u 0).val = (u ⟨0, by decide⟩).val :=
  dot_S2000x128_S128x256_S2000x256_1_0_0_1_n_n.rhsIdx_val_of_single rfl j u
theorem rhs_col (j : S2000x256.Idx) (u : dot_S2000x128_S128x256_S2000x256_1_0_0_1_n_n.contr.Idx) : (dot_S2000x128_S128x256_S2000x256_1_0_0_1_n_n.rhsIdx j u 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block's matrix product into a zero accumulator, at entry (p, q): the sum over the 128 contracted positions. -/
theorem product_apply (l : FVec Ideal S2000x128 .bf16) (w : FVec Ideal S128x256 .bf16) (p : Fin 2000) (q : Fin 256) :
    matmul dot_S2000x128_S128x256_S2000x256_1_0_0_1_n_n none l w (constant S2000x256 .f32 0x00000000#32) (ix2 p q) = ∑ κ : Fin 128, l (ix2 p κ) * w (ix2 κ q) := by
  simp only [matmul]
  rw [Ideal.matmul_constant_zero_apply, ← Equiv.sum_comp (contrEquiv1 dot_S2000x128_S128x256_S2000x256_1_0_0_1_n_n 128 rfl rfl).symm]
  refine Finset.sum_congr rfl fun κ _ => ?_
  have hk := contrEquiv1_symm_val dot_S2000x128_S128x256_S2000x256_1_0_0_1_n_n 128 rfl rfl κ
  have el : dot_S2000x128_S128x256_S2000x256_1_0_0_1_n_n.lhsIdx (ix2 p q) ((contrEquiv1 dot_S2000x128_S128x256_S2000x256_1_0_0_1_n_n 128 rfl rfl).symm κ) = ix2 p κ := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm κ) = ix2 κ q := funext fun a => Fin.ext (by
    match a with
    | ⟨0, _⟩ => exact (rhs_row _ _).trans hk
    | ⟨1, _⟩ => exact rhs_col _ _)
  rw [el, er]

/-- The bias row spread over the block's rows, at entry (p, q): the row's entry q. -/
theorem bias_apply (v : S1x256.Idx → EReal) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- What one grid point's body stores, at entry (p, q), from the blocks it loaded. -/
theorem payload_apply (x0 : Vec Ideal S2000x128 .f32) (x1 : Vec Ideal S128x256 .f32) (x2 : Vec Ideal S2000x128 .f32)
    (x3 : Vec Ideal S128x256 .f32) (x4 : Vec Ideal S1x256 .f32) (p : Fin 2000) (q : Fin 256) :
    k0_pay1 (F := Ideal) x0 x1 x2 x3 x4 (ix2 p q)
      = max ((∑ κ : Fin 128, x0 (ix2 p κ) * x1 (ix2 κ q)) + (∑ κ : Fin 128, x2 (ix2 p κ) * x3 (ix2 κ q)) + x4 (ix2 0 q)) (Ideal.ofBits .f32 0x00000000#32) := by
  unfold k0_pay1
  simp only [shapeCast_self]
  show max (FloatOps.addf (FloatOps.addf (matmul dot_S2000x128_S128x256_S2000x256_1_0_0_1_n_n none (truncf .bf16 x0 bitsLt_bf16_f32) (truncf .bf16 x1 bitsLt_bf16_f32) (constant S2000x256 .f32 0x00000000#32) (ix2 p q))
      (matmul dot_S2000x128_S128x256_S2000x256_1_0_0_1_n_n none (truncf .bf16 x2 bitsLt_bf16_f32) (truncf .bf16 x3 bitsLt_bf16_f32) (constant S2000x256 .f32 0x00000000#32) (ix2 p q)))
      (broadcastTo S2000x256 x4 broadcasts_S1x256_S2000x256 (ix2 p q))) (Ideal.ofBits .f32 0x00000000#32) = _
  rw [product_apply, product_apply, bias_apply]
  rfl

/-! ## From the grid points' blocks to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the two row operands and the result move with the point along the
    rows; the weights and the bias row stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's band is row 2000·t + p of the array. -/
def bandRow (t : Fin cfg0.N) (p : Fin 2000) : Fin 50000 :=
  ⟨2000 * t.val + p.val, by have ht : t.val < 25 := lt_of_lt_of_eq t.isLt N_0; have hp := p.isLt; omega⟩

/-- Where the result's block at point t sits in the result array. -/
theorem result_emb (t : Fin cfg0.N) (p : Fin 2000) (q : Fin 256) :
    ((cfg0.win 5).blk t).view.emb (ix2 p q) = ix2 (bandRow t p) q := by
  obtain ⟨-, -, -, -, -, -, -, -, -, -, e0, e1⟩ := index_maps t
  funext a; apply Fin.ext
  match a with
  | ⟨0, _⟩ => show win0_5.index t (0 : Fin 2) * 2000 + 1 * p.val = 2000 * t.val + p.val; omega
  | ⟨1, _⟩ => show win0_5.index t (1 : Fin 2) * 256 + 1 * q.val = q.val; omega

/-- The first row operand's block at point t, read at (p, κ): the array at row 2000·t + p. -/
theorem read_rows0 (c : Dev nD) (t : Fin cfg0.N) (p : Fin 2000) (κ : Fin 128) :
    iblk0 V c 0 t (ix2 p κ) = V c (Pipeline.arrRef spec0 0) (ix2 (bandRow t p) κ) := by
  obtain ⟨e0, e1, -⟩ := index_maps t
  show V c (Pipeline.arrRef spec0 0) (((cfg0.win 0).blk t).view.emb (ix2 p κ)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * κ.val = κ.val; omega

/-- The second row operand's block at point t, read at (p, κ): the array at row 2000·t + p. -/
theorem read_rows2 (c : Dev nD) (t : Fin cfg0.N) (p : Fin 2000) (κ : Fin 128) :
    iblk0 V c 2 t (ix2 p κ) = V c (Pipeline.arrRef spec0 2) (ix2 (bandRow t p) κ) := by
  obtain ⟨-, -, -, -, e0, e1, -⟩ := index_maps t
  show V c (Pipeline.arrRef spec0 2) (((cfg0.win 2).blk t).view.emb (ix2 p κ)) = _
  refine congrArg _ (funext fun a => Fin.ext ?_)
  match a with
  | ⟨0, _⟩ => show win0_2.index t (0 : Fin 2) * 2000 + 1 * p.val = 2000 * t.val + p.val; omega
  | ⟨1, _⟩ => show win0_2.index t (1 : Fin 2) * 128 + 1 * κ.val = κ.val; omega

/-- The first weight matrix is staged whole at every point. -/
theorem read_weights1 (c : Dev nD) (t : Fin cfg0.N) (κ : Fin 128) (q : Fin 256) :
    iblk0 V c 1 t (ix2 κ q) = V c (Pipeline.arrRef spec0 1) (ix2 κ q) := by
  obtain ⟨-, -, e0, e1, -⟩ := index_maps t
  show V c (Pipeline.arrRef spec0 1) (((cfg0.win 1).blk t).view.emb (ix2 κ q)) = _
  refine congrArg _ (funext fun a => Fin.ext ?_)
  match a with
  | ⟨0, _⟩ => show win0_1.index t (0 : Fin 2) * 128 + 1 * κ.val = κ.val; omega
  | ⟨1, _⟩ => show win0_1.index t (1 : Fin 2) * 256 + 1 * q.val = q.val; omega

/-- The second weight matrix is staged whole at every point. -/
theorem read_weights3 (c : Dev nD) (t : Fin cfg0.N) (κ : Fin 128) (q : Fin 256) :
    iblk0 V c 3 t (ix2 κ q) = V c (Pipeline.arrRef spec0 3) (ix2 κ q) := by
  obtain ⟨-, -, -, -, -, -, e0, e1, -⟩ := index_maps t
  show V c (Pipeline.arrRef spec0 3) (((cfg0.win 3).blk t).view.emb (ix2 κ q)) = _
  refine congrArg _ (funext fun a => Fin.ext ?_)
  match a with
  | ⟨0, _⟩ => show win0_3.index t (0 : Fin 2) * 128 + 1 * κ.val = κ.val; omega
  | ⟨1, _⟩ => show win0_3.index t (1 : Fin 2) * 256 + 1 * q.val = q.val; omega

/-- The bias row is staged whole at every point. -/
theorem read_bias (c : Dev nD) (t : Fin cfg0.N) (q : Fin 256) :
    iblk0 V c 4 t (ix2 (0 : Fin 1) q) = V c (Pipeline.arrRef spec0 4) (ix2 (0 : Fin 1) q) := by
  obtain ⟨-, -, -, -, -, -, -, -, e0, e1, -⟩ := index_maps t
  show V c (Pipeline.arrRef spec0 4) (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- What point t writes back is band t of the layer's result over the arrays as the launch finds them. -/
theorem flushed_eq (c : Dev nD) (t : Fin cfg0.N) :
    (dat0 V c).flushed 5 t = ((cfg0.win 5).blk t).view.read (Elt Ideal) (G (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x256) zero_offsets, View.ld_unit_zero (S := S1x256) zero_offsets]
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
    = (G (V c (Pipeline.arrRef spec0 0)) (V c (Pipeline.arrRef spec0 1)) (V c (Pipeline.arrRef spec0 2)) (V c (Pipeline.arrRef spec0 3)) (V c (Pipeline.arrRef spec0 4))) (((cfg0.win 5).blk t).view.emb (ix2 p q))
  refine (payload_apply (iblk0 V c 0 t) (iblk0 V c 1 t) (iblk0 V c 2 t) (iblk0 V c 3 t) (iblk0 V c 4 t) p q).trans ?_
  rw [result_emb t p q]
  unfold G entry
  simp only [read_rows0 V c t, read_rows2 V c t, read_weights1 V c t, read_weights3 V c t, read_bias V c t]

/-- An index of the result array is in point t's block iff its row is in band t. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole (Pipeline.arrRef spec0 5)).slice (win0_5.rect t)).set ↔ _
  rw [View.set_slice_whole, Rect.mem_set_unit]
  exact Iff.rfl

/-- Every index of the result array is in the block of the point its row's band names. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  let t : Fin cfg0.N := ⟨(i 0).val / 2000, lt_of_lt_of_eq (by omega) N_0.symm⟩
  obtain ⟨-, -, -, -, -, -, -, -, -, -, e0, e1⟩ := index_maps t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the launch the result array is the layer's result of the arrays as the launch finds them. -/
theorem result_array (c : Dev nD) : (dat0 V c).arrAt 5 cfg0.N = (G (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 5 _ (fun t _ => flushed_eq V c t) cover

end Blocks

end Cert.KernelIdeal.Layer0

end
-- ==== Proof.Layer1.lean ====
/-
  Launch 1 of the kernel: the first layer's user side, relu(agg_u · wl1_iu + x_user · wr1_iu + b1_iu).
  The grid has 50 points; point t stages rows 2000·t … 2000·t + 1999 of the two row operands (all 128 columns),
  the two weight matrices and the bias row whole, and writes back rows 2000·t … 2000·t + 1999 of the result (all
  256 columns). Entry (r, q) of a block's result depends only on row r of the two staged row blocks: it is
  Σ_κ a[r, κ]·wl[κ, q] + Σ_κ b[r, κ]·wr[κ, q] + bias[0, q], clamped below at 0 — each matrix product taken into a zero accumulator, the
  narrowing of the operands to bf16 the identity on extended reals. The 50 row bands tile the 100000 rows, so after
  the launch the result array is that same expression of the whole operand arrays at every index.
-/
import proofs.«165792_j41575283425666_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The layer as one function of whole arrays -/

/-- Entry (r, q) of the layer's result from the whole operand arrays. -/
def entry (A : S100000x128.Idx → EReal) (Wl : S128x256.Idx → EReal) (B : S100000x128.Idx → EReal) (Wr : S128x256.Idx → EReal)
    (b : S1x256.Idx → EReal) (r : Fin 100000) (q : Fin 256) : EReal :=
  max ((∑ κ : Fin 128, A (ix2 r κ) * Wl (ix2 κ q)) + (∑ κ : Fin 128, B (ix2 r κ) * Wr (ix2 κ q)) + b (ix2 0 q)) (Ideal.ofBits .f32 0x00000000#32)

/-- The layer's result array. -/
def G (A : S100000x128.Idx → EReal) (Wl : S128x256.Idx → EReal) (B : S100000x128.Idx → EReal) (Wr : S128x256.Idx → EReal)
    (b : S1x256.Idx → EReal) : S100000x256.Idx → EReal :=
  fun i => entry A Wl B Wr b (i 0) (i 1)

/-! ## One block's arithmetic at an entry -/

theorem lhs_row (j : S2000x256.Idx) (u : dot_S2000x128_S128x256_S2000x256_1_0_0_1_n_n.contr.Idx) : (dot_S2000x128_S128x256_S2000x256_1_0_0_1_n_n.lhsIdx j u 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_col (j : S2000x256.Idx) (u : dot_S2000x128_S128x256_S2000x256_1_0_0_1_n_n.contr.Idx) : (dot_S2000x128_S128x256_S2000x256_1_0_0_1_n_n.lhsIdx j u 1).val = (u ⟨0, by decide⟩).val :=
  dot_S2000x128_S128x256_S2000x256_1_0_0_1_n_n.lhsIdx_val_of_single rfl j u
theorem rhs_row (j : S2000x256.Idx) (u : dot_S2000x128_S128x256_S2000x256_1_0_0_1_n_n.contr.Idx) : (dot_S2000x128_S128x256_S2000x256_1_0_0_1_n_n.rhsIdx j u 0).val = (u ⟨0, by decide⟩).val :=
  dot_S2000x128_S128x256_S2000x256_1_0_0_1_n_n.rhsIdx_val_of_single rfl j u
theorem rhs_col (j : S2000x256.Idx) (u : dot_S2000x128_S128x256_S2000x256_1_0_0_1_n_n.contr.Idx) : (dot_S2000x128_S128x256_S2000x256_1_0_0_1_n_n.rhsIdx j u 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block's matrix product into a zero accumulator, at entry (p, q): the sum over the 128 contracted positions. -/
theorem product_apply (l : FVec Ideal S2000x128 .bf16) (w : FVec Ideal S128x256 .bf16) (p : Fin 2000) (q : Fin 256) :
    matmul dot_S2000x128_S128x256_S2000x256_1_0_0_1_n_n none l w (constant S2000x256 .f32 0x00000000#32) (ix2 p q) = ∑ κ : Fin 128, l (ix2 p κ) * w (ix2 κ q) := by
  simp only [matmul]
  rw [Ideal.matmul_constant_zero_apply, ← Equiv.sum_comp (contrEquiv1 dot_S2000x128_S128x256_S2000x256_1_0_0_1_n_n 128 rfl rfl).symm]
  refine Finset.sum_congr rfl fun κ _ => ?_
  have hk := contrEquiv1_symm_val dot_S2000x128_S128x256_S2000x256_1_0_0_1_n_n 128 rfl rfl κ
  have el : dot_S2000x128_S128x256_S2000x256_1_0_0_1_n_n.lhsIdx (ix2 p q) ((contrEquiv1 dot_S2000x128_S128x256_S2000x256_1_0_0_1_n_n 128 rfl rfl).symm κ) = ix2 p κ := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm κ) = ix2 κ q := funext fun a => Fin.ext (by
    match a with
    | ⟨0, _⟩ => exact (rhs_row _ _).trans hk
    | ⟨1, _⟩ => exact rhs_col _ _)
  rw [el, er]

/-- The bias row spread over the block's rows, at entry (p, q): the row's entry q. -/
theorem bias_apply (v : S1x256.Idx → EReal) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- What one grid point's body stores, at entry (p, q), from the blocks it loaded. -/
theorem payload_apply (x0 : Vec Ideal S2000x128 .f32) (x1 : Vec Ideal S128x256 .f32) (x2 : Vec Ideal S2000x128 .f32)
    (x3 : Vec Ideal S128x256 .f32) (x4 : Vec Ideal S1x256 .f32) (p : Fin 2000) (q : Fin 256) :
    k1_pay1 (F := Ideal) x0 x1 x2 x3 x4 (ix2 p q)
      = max ((∑ κ : Fin 128, x0 (ix2 p κ) * x1 (ix2 κ q)) + (∑ κ : Fin 128, x2 (ix2 p κ) * x3 (ix2 κ q)) + x4 (ix2 0 q)) (Ideal.ofBits .f32 0x00000000#32) := by
  unfold k1_pay1
  simp only [shapeCast_self]
  show max (FloatOps.addf (FloatOps.addf (matmul dot_S2000x128_S128x256_S2000x256_1_0_0_1_n_n none (truncf .bf16 x0 bitsLt_bf16_f32) (truncf .bf16 x1 bitsLt_bf16_f32) (constant S2000x256 .f32 0x00000000#32) (ix2 p q))
      (matmul dot_S2000x128_S128x256_S2000x256_1_0_0_1_n_n none (truncf .bf16 x2 bitsLt_bf16_f32) (truncf .bf16 x3 bitsLt_bf16_f32) (constant S2000x256 .f32 0x00000000#32) (ix2 p q)))
      (broadcastTo S2000x256 x4 broadcasts_S1x256_S2000x256 (ix2 p q))) (Ideal.ofBits .f32 0x00000000#32) = _
  rw [product_apply, product_apply, bias_apply]
  rfl

/-! ## From the grid points' blocks to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the two row operands and the result move with the point along the
    rows; the weights and the bias row stay at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's band is row 2000·t + p of the array. -/
def bandRow (t : Fin cfg1.N) (p : Fin 2000) : Fin 100000 :=
  ⟨2000 * t.val + p.val, by have ht : t.val < 50 := lt_of_lt_of_eq t.isLt N_1; have hp := p.isLt; omega⟩

/-- Where the result's block at point t sits in the result array. -/
theorem result_emb (t : Fin cfg1.N) (p : Fin 2000) (q : Fin 256) :
    ((cfg1.win 5).blk t).view.emb (ix2 p q) = ix2 (bandRow t p) q := by
  obtain ⟨-, -, -, -, -, -, -, -, -, -, e0, e1⟩ := index_maps t
  funext a; apply Fin.ext
  match a with
  | ⟨0, _⟩ => show win1_5.index t (0 : Fin 2) * 2000 + 1 * p.val = 2000 * t.val + p.val; omega
  | ⟨1, _⟩ => show win1_5.index t (1 : Fin 2) * 256 + 1 * q.val = q.val; omega

/-- The first row operand's block at point t, read at (p, κ): the array at row 2000·t + p. -/
theorem read_rows0 (c : Dev nD) (t : Fin cfg1.N) (p : Fin 2000) (κ : Fin 128) :
    iblk1 V c 0 t (ix2 p κ) = V c (Pipeline.arrRef spec1 0) (ix2 (bandRow t p) κ) := by
  obtain ⟨e0, e1, -⟩ := index_maps t
  show V c (Pipeline.arrRef spec1 0) (((cfg1.win 0).blk t).view.emb (ix2 p κ)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * κ.val = κ.val; omega

/-- The second row operand's block at point t, read at (p, κ): the array at row 2000·t + p. -/
theorem read_rows2 (c : Dev nD) (t : Fin cfg1.N) (p : Fin 2000) (κ : Fin 128) :
    iblk1 V c 2 t (ix2 p κ) = V c (Pipeline.arrRef spec1 2) (ix2 (bandRow t p) κ) := by
  obtain ⟨-, -, -, -, e0, e1, -⟩ := index_maps t
  show V c (Pipeline.arrRef spec1 2) (((cfg1.win 2).blk t).view.emb (ix2 p κ)) = _
  refine congrArg _ (funext fun a => Fin.ext ?_)
  match a with
  | ⟨0, _⟩ => show win1_2.index t (0 : Fin 2) * 2000 + 1 * p.val = 2000 * t.val + p.val; omega
  | ⟨1, _⟩ => show win1_2.index t (1 : Fin 2) * 128 + 1 * κ.val = κ.val; omega

/-- The first weight matrix is staged whole at every point. -/
theorem read_weights1 (c : Dev nD) (t : Fin cfg1.N) (κ : Fin 128) (q : Fin 256) :
    iblk1 V c 1 t (ix2 κ q) = V c (Pipeline.arrRef spec1 1) (ix2 κ q) := by
  obtain ⟨-, -, e0, e1, -⟩ := index_maps t
  show V c (Pipeline.arrRef spec1 1) (((cfg1.win 1).blk t).view.emb (ix2 κ q)) = _
  refine congrArg _ (funext fun a => Fin.ext ?_)
  match a with
  | ⟨0, _⟩ => show win1_1.index t (0 : Fin 2) * 128 + 1 * κ.val = κ.val; omega
  | ⟨1, _⟩ => show win1_1.index t (1 : Fin 2) * 256 + 1 * q.val = q.val; omega

/-- The second weight matrix is staged whole at every point. -/
theorem read_weights3 (c : Dev nD) (t : Fin cfg1.N) (κ : Fin 128) (q : Fin 256) :
    iblk1 V c 3 t (ix2 κ q) = V c (Pipeline.arrRef spec1 3) (ix2 κ q) := by
  obtain ⟨-, -, -, -, -, -, e0, e1, -⟩ := index_maps t
  show V c (Pipeline.arrRef spec1 3) (((cfg1.win 3).blk t).view.emb (ix2 κ q)) = _
  refine congrArg _ (funext fun a => Fin.ext ?_)
  match a with
  | ⟨0, _⟩ => show win1_3.index t (0 : Fin 2) * 128 + 1 * κ.val = κ.val; omega
  | ⟨1, _⟩ => show win1_3.index t (1 : Fin 2) * 256 + 1 * q.val = q.val; omega

/-- The bias row is staged whole at every point. -/
theorem read_bias (c : Dev nD) (t : Fin cfg1.N) (q : Fin 256) :
    iblk1 V c 4 t (ix2 (0 : Fin 1) q) = V c (Pipeline.arrRef spec1 4) (ix2 (0 : Fin 1) q) := by
  obtain ⟨-, -, -, -, -, -, -, -, e0, e1, -⟩ := index_maps t
  show V c (Pipeline.arrRef spec1 4) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- What point t writes back is band t of the layer's result over the arrays as the launch finds them. -/
theorem flushed_eq (c : Dev nD) (t : Fin cfg1.N) :
    (dat1 V c).flushed 5 t = ((cfg1.win 5).blk t).view.read (Elt Ideal) (G (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x256) zero_offsets, View.ld_unit_zero (S := S1x256) zero_offsets]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (iblk1 V c 4 t) (ix2 p q)
    = (G (V c (Pipeline.arrRef spec1 0)) (V c (Pipeline.arrRef spec1 1)) (V c (Pipeline.arrRef spec1 2)) (V c (Pipeline.arrRef spec1 3)) (V c (Pipeline.arrRef spec1 4))) (((cfg1.win 5).blk t).view.emb (ix2 p q))
  refine (payload_apply (iblk1 V c 0 t) (iblk1 V c 1 t) (iblk1 V c 2 t) (iblk1 V c 3 t) (iblk1 V c 4 t) p q).trans ?_
  rw [result_emb t p q]
  unfold G entry
  simp only [read_rows0 V c t, read_rows2 V c t, read_weights1 V c t, read_weights3 V c t, read_bias V c t]

/-- An index of the result array is in point t's block iff its row is in band t. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole (Pipeline.arrRef spec1 5)).slice (win1_5.rect t)).set ↔ _
  rw [View.set_slice_whole, Rect.mem_set_unit]
  exact Iff.rfl

/-- Every index of the result array is in the block of the point its row's band names. -/
theorem cover (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  let t : Fin cfg1.N := ⟨(i 0).val / 2000, lt_of_lt_of_eq (by omega) N_1.symm⟩
  obtain ⟨-, -, -, -, -, -, -, -, -, -, e0, e1⟩ := index_maps t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- After the launch the result array is the layer's result of the arrays as the launch finds them. -/
theorem result_array (c : Dev nD) : (dat1 V c).arrAt 5 cfg1.N = (G (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 5 _ (fun t _ => flushed_eq V c t) cover

end Blocks

end Cert.KernelIdeal.Layer1

end
-- ==== Proof.Layer2.lean ====
/-
  Launch 2 of the kernel: the second layer's item side, agg_i2 · wl2_ui + h_item · wr2_ui + b2_ui.
  The grid has 25 points; point t stages rows 2000·t … 2000·t + 1999 of the two row operands (all 256 columns),
  the two weight matrices and the bias row whole, and writes back rows 2000·t … 2000·t + 1999 of the result (all
  128 columns). Entry (r, q) of a block's result depends only on row r of the two staged row blocks: it is
  Σ_κ a[r, κ]·wl[κ, q] + Σ_κ b[r, κ]·wr[κ, q] + bias[0, q] — each matrix product taken into a zero accumulator, the
  narrowing of the operands to bf16 the identity on extended reals. The 25 row bands tile the 50000 rows, so after
  the launch the result array is that same expression of the whole operand arrays at every index.
-/
import proofs.«165792_j41575283425666_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The layer as one function of whole arrays -/

/-- Entry (r, q) of the layer's result from the whole operand arrays. -/
def entry (A : S50000x256.Idx → EReal) (Wl : S256x128.Idx → EReal) (B : S50000x256.Idx → EReal) (Wr : S256x128.Idx → EReal)
    (b : S1x128.Idx → EReal) (r : Fin 50000) (q : Fin 128) : EReal :=
  (∑ κ : Fin 256, A (ix2 r κ) * Wl (ix2 κ q)) + (∑ κ : Fin 256, B (ix2 r κ) * Wr (ix2 κ q)) + b (ix2 0 q)

/-- The layer's result array. -/
def G (A : S50000x256.Idx → EReal) (Wl : S256x128.Idx → EReal) (B : S50000x256.Idx → EReal) (Wr : S256x128.Idx → EReal)
    (b : S1x128.Idx → EReal) : S50000x128.Idx → EReal :=
  fun i => entry A Wl B Wr b (i 0) (i 1)

/-! ## One block's arithmetic at an entry -/

theorem lhs_row (j : S2000x128.Idx) (u : dot_S2000x256_S256x128_S2000x128_1_0_0_1_n_n.contr.Idx) : (dot_S2000x256_S256x128_S2000x128_1_0_0_1_n_n.lhsIdx j u 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_col (j : S2000x128.Idx) (u : dot_S2000x256_S256x128_S2000x128_1_0_0_1_n_n.contr.Idx) : (dot_S2000x256_S256x128_S2000x128_1_0_0_1_n_n.lhsIdx j u 1).val = (u ⟨0, by decide⟩).val :=
  dot_S2000x256_S256x128_S2000x128_1_0_0_1_n_n.lhsIdx_val_of_single rfl j u
theorem rhs_row (j : S2000x128.Idx) (u : dot_S2000x256_S256x128_S2000x128_1_0_0_1_n_n.contr.Idx) : (dot_S2000x256_S256x128_S2000x128_1_0_0_1_n_n.rhsIdx j u 0).val = (u ⟨0, by decide⟩).val :=
  dot_S2000x256_S256x128_S2000x128_1_0_0_1_n_n.rhsIdx_val_of_single rfl j u
theorem rhs_col (j : S2000x128.Idx) (u : dot_S2000x256_S256x128_S2000x128_1_0_0_1_n_n.contr.Idx) : (dot_S2000x256_S256x128_S2000x128_1_0_0_1_n_n.rhsIdx j u 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A block's matrix product into a zero accumulator, at entry (p, q): the sum over the 256 contracted positions. -/
theorem product_apply (l : FVec Ideal S2000x256 .bf16) (w : FVec Ideal S256x128 .bf16) (p : Fin 2000) (q : Fin 128) :
    matmul dot_S2000x256_S256x128_S2000x128_1_0_0_1_n_n none l w (constant S2000x128 .f32 0x00000000#32) (ix2 p q) = ∑ κ : Fin 256, l (ix2 p κ) * w (ix2 κ q) := by
  simp only [matmul]
  rw [Ideal.matmul_constant_zero_apply, ← Equiv.sum_comp (contrEquiv1 dot_S2000x256_S256x128_S2000x128_1_0_0_1_n_n 256 rfl rfl).symm]
  refine Finset.sum_congr rfl fun κ _ => ?_
  have hk := contrEquiv1_symm_val dot_S2000x256_S256x128_S2000x128_1_0_0_1_n_n 256 rfl rfl κ
  have el : dot_S2000x256_S256x128_S2000x128_1_0_0_1_n_n.lhsIdx (ix2 p q) ((contrEquiv1 dot_S2000x256_S256x128_S2000x128_1_0_0_1_n_n 256 rfl rfl).symm κ) = ix2 p κ := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((contrEquiv1 dot_S2000x256_S256x128_S2000x128_1_0_0_1_n_n 256 rfl rfl).symm κ) = ix2 κ q := funext fun a => Fin.ext (by
    match a with
    | ⟨0, _⟩ => exact (rhs_row _ _).trans hk
    | ⟨1, _⟩ => exact rhs_col _ _)
  rw [el, er]

/-- The bias row spread over the block's rows, at entry (p, q): the row's entry q. -/
theorem bias_apply (v : S1x128.Idx → EReal) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- What one grid point's body stores, at entry (p, q), from the blocks it loaded. -/
theorem payload_apply (x0 : Vec Ideal S2000x256 .f32) (x1 : Vec Ideal S256x128 .f32) (x2 : Vec Ideal S2000x256 .f32)
    (x3 : Vec Ideal S256x128 .f32) (x4 : Vec Ideal S1x128 .f32) (p : Fin 2000) (q : Fin 128) :
    k2_pay1 (F := Ideal) x0 x1 x2 x3 x4 (ix2 p q)
      = (∑ κ : Fin 256, x0 (ix2 p κ) * x1 (ix2 κ q)) + (∑ κ : Fin 256, x2 (ix2 p κ) * x3 (ix2 κ q)) + x4 (ix2 0 q) := by
  unfold k2_pay1
  simp only [shapeCast_self]
  show FloatOps.addf (F := Ideal) (FloatOps.addf (F := Ideal) (matmul dot_S2000x256_S256x128_S2000x128_1_0_0_1_n_n none (truncf .bf16 x0 bitsLt_bf16_f32) (truncf .bf16 x1 bitsLt_bf16_f32) (constant S2000x128 .f32 0x00000000#32) (ix2 p q))
      (matmul dot_S2000x256_S256x128_S2000x128_1_0_0_1_n_n none (truncf .bf16 x2 bitsLt_bf16_f32) (truncf .bf16 x3 bitsLt_bf16_f32) (constant S2000x128 .f32 0x00000000#32) (ix2 p q)))
      (broadcastTo S2000x128 x4 broadcasts_S1x128_S2000x128 (ix2 p q)) = _
  rw [product_apply, product_apply, bias_apply]
  rfl

/-! ## From the grid points' blocks to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the two row operands and the result move with the point along the
    rows; the weights and the bias row stay at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's band is row 2000·t + p of the array. -/
def bandRow (t : Fin cfg2.N) (p : Fin 2000) : Fin 50000 :=
  ⟨2000 * t.val + p.val, by have ht : t.val < 25 := lt_of_lt_of_eq t.isLt N_2; have hp := p.isLt; omega⟩

/-- Where the result's block at point t sits in the result array. -/
theorem result_emb (t : Fin cfg2.N) (p : Fin 2000) (q : Fin 128) :
    ((cfg2.win 5).blk t).view.emb (ix2 p q) = ix2 (bandRow t p) q := by
  obtain ⟨-, -, -, -, -, -, -, -, -, -, e0, e1⟩ := index_maps t
  funext a; apply Fin.ext
  match a with
  | ⟨0, _⟩ => show win2_5.index t (0 : Fin 2) * 2000 + 1 * p.val = 2000 * t.val + p.val; omega
  | ⟨1, _⟩ => show win2_5.index t (1 : Fin 2) * 128 + 1 * q.val = q.val; omega

/-- The first row operand's block at point t, read at (p, κ): the array at row 2000·t + p. -/
theorem read_rows0 (c : Dev nD) (t : Fin cfg2.N) (p : Fin 2000) (κ : Fin 256) :
    iblk2 V c 0 t (ix2 p κ) = V c (Pipeline.arrRef spec2 0) (ix2 (bandRow t p) κ) := by
  obtain ⟨e0, e1, -⟩ := index_maps t
  show V c (Pipeline.arrRef spec2 0) (((cfg2.win 0).blk t).view.emb (ix2 p κ)) = _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 256 + 1 * κ.val = κ.val; omega

/-- The second row operand's block at point t, read at (p, κ): the array at row 2000·t + p. -/
theorem read_rows2 (c : Dev nD) (t : Fin cfg2.N) (p : Fin 2000) (κ : Fin 256) :
    iblk2 V c 2 t (ix2 p κ) = V c (Pipeline.arrRef spec2 2) (ix2 (bandRow t p) κ) := by
  obtain ⟨-, -, -, -, e0, e1, -⟩ := index_maps t
  show V c (Pipeline.arrRef spec2 2) (((cfg2.win 2).blk t).view.emb (ix2 p κ)) = _
  refine congrArg _ (funext fun a => Fin.ext ?_)
  match a with
  | ⟨0, _⟩ => show win2_2.index t (0 : Fin 2) * 2000 + 1 * p.val = 2000 * t.val + p.val; omega
  | ⟨1, _⟩ => show win2_2.index t (1 : Fin 2) * 256 + 1 * κ.val = κ.val; omega

/-- The first weight matrix is staged whole at every point. -/
theorem read_weights1 (c : Dev nD) (t : Fin cfg2.N) (κ : Fin 256) (q : Fin 128) :
    iblk2 V c 1 t (ix2 κ q) = V c (Pipeline.arrRef spec2 1) (ix2 κ q) := by
  obtain ⟨-, -, e0, e1, -⟩ := index_maps t
  show V c (Pipeline.arrRef spec2 1) (((cfg2.win 1).blk t).view.emb (ix2 κ q)) = _
  refine congrArg _ (funext fun a => Fin.ext ?_)
  match a with
  | ⟨0, _⟩ => show win2_1.index t (0 : Fin 2) * 256 + 1 * κ.val = κ.val; omega
  | ⟨1, _⟩ => show win2_1.index t (1 : Fin 2) * 128 + 1 * q.val = q.val; omega

/-- The second weight matrix is staged whole at every point. -/
theorem read_weights3 (c : Dev nD) (t : Fin cfg2.N) (κ : Fin 256) (q : Fin 128) :
    iblk2 V c 3 t (ix2 κ q) = V c (Pipeline.arrRef spec2 3) (ix2 κ q) := by
  obtain ⟨-, -, -, -, -, -, e0, e1, -⟩ := index_maps t
  show V c (Pipeline.arrRef spec2 3) (((cfg2.win 3).blk t).view.emb (ix2 κ q)) = _
  refine congrArg _ (funext fun a => Fin.ext ?_)
  match a with
  | ⟨0, _⟩ => show win2_3.index t (0 : Fin 2) * 256 + 1 * κ.val = κ.val; omega
  | ⟨1, _⟩ => show win2_3.index t (1 : Fin 2) * 128 + 1 * q.val = q.val; omega

/-- The bias row is staged whole at every point. -/
theorem read_bias (c : Dev nD) (t : Fin cfg2.N) (q : Fin 128) :
    iblk2 V c 4 t (ix2 (0 : Fin 1) q) = V c (Pipeline.arrRef spec2 4) (ix2 (0 : Fin 1) q) := by
  obtain ⟨-, -, -, -, -, -, -, -, e0, e1, -⟩ := index_maps t
  show V c (Pipeline.arrRef spec2 4) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- What point t writes back is band t of the layer's result over the arrays as the launch finds them. -/
theorem flushed_eq (c : Dev nD) (t : Fin cfg2.N) :
    (dat2 V c).flushed 5 t = ((cfg2.win 5).blk t).view.read (Elt Ideal) (G (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x128) zero_offsets, View.ld_unit_zero (S := S1x128) zero_offsets]
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = (G (V c (Pipeline.arrRef spec2 0)) (V c (Pipeline.arrRef spec2 1)) (V c (Pipeline.arrRef spec2 2)) (V c (Pipeline.arrRef spec2 3)) (V c (Pipeline.arrRef spec2 4))) (((cfg2.win 5).blk t).view.emb (ix2 p q))
  refine (payload_apply (iblk2 V c 0 t) (iblk2 V c 1 t) (iblk2 V c 2 t) (iblk2 V c 3 t) (iblk2 V c 4 t) p q).trans ?_
  rw [result_emb t p q]
  unfold G entry
  simp only [read_rows0 V c t, read_rows2 V c t, read_weights1 V c t, read_weights3 V c t, read_bias V c t]

/-- An index of the result array is in point t's block iff its row is in band t. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole (Pipeline.arrRef spec2 5)).slice (win2_5.rect t)).set ↔ _
  rw [View.set_slice_whole, Rect.mem_set_unit]
  exact Iff.rfl

/-- Every index of the result array is in the block of the point its row's band names. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 2000, lt_of_lt_of_eq (by omega) N_2.symm⟩
  obtain ⟨-, -, -, -, -, -, -, -, -, -, e0, e1⟩ := index_maps t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the launch the result array is the layer's result of the arrays as the launch finds them. -/
theorem result_array (c : Dev nD) : (dat2 V c).arrAt 5 cfg2.N = (G (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 5 _ (fun t _ => flushed_eq V c t) cover

end Blocks

end Cert.KernelIdeal.Layer2

end
-- ==== Proof.Layer3.lean ====
/-
  Launch 3 of the kernel: the second layer's user side, agg_u2 · wl2_iu + h_user · wr2_iu + b2_iu.
  The grid has 50 points; point t stages rows 2000·t … 2000·t + 1999 of the two row operands (all 256 columns),
  the two weight matrices and the bias row whole, and writes back rows 2000·t … 2000·t + 1999 of the result (all
  128 columns). Entry (r, q) of a block's result depends only on row r of the two staged row blocks: it is
  Σ_κ a[r, κ]·wl[κ, q] + Σ_κ b[r, κ]·wr[κ, q] + bias[0, q] — each matrix product taken into a zero accumulator, the
  narrowing of the operands to bf16 the identity on extended reals. The 50 row bands tile the 100000 rows, so after
  the launch the result array is that same expression of the whole operand arrays at every index.
-/
import proofs.«165792_j41575283425666_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The layer as one function of whole arrays -/

/-- Entry (r, q) of the layer's result from the whole operand arrays. -/
def entry (A : S100000x256.Idx → EReal) (Wl : S256x128.Idx → EReal) (B : S100000x256.Idx → EReal) (Wr : S256x128.Idx → EReal)
    (b : S1x128.Idx → EReal) (r : Fin 100000) (q : Fin 128) : EReal :=
  (∑ κ : Fin 256, A (ix2 r κ) * Wl (ix2 κ q)) + (∑ κ : Fin 256, B (ix2 r κ) * Wr (ix2 κ q)) + b (ix2 0 q)

/-- The layer's result array. -/
def G (A : S100000x256.Idx → EReal) (Wl : S256x128.Idx → EReal) (B : S100000x256.Idx → EReal) (Wr : S256x128.Idx → EReal)
    (b : S1x128.Idx → EReal) : S100000x128.Idx → EReal :=
  fun i => entry A Wl B Wr b (i 0) (i 1)

/-! ## One block's arithmetic at an entry -/

theorem lhs_row (j : S2000x128.Idx) (u : dot_S2000x256_S256x128_S2000x128_1_0_0_1_n_n.contr.Idx) : (dot_S2000x256_S256x128_S2000x128_1_0_0_1_n_n.lhsIdx j u 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_col (j : S2000x128.Idx) (u : dot_S2000x256_S256x128_S2000x128_1_0_0_1_n_n.contr.Idx) : (dot_S2000x256_S256x128_S2000x128_1_0_0_1_n_n.lhsIdx j u 1).val = (u ⟨0, by decide⟩).val :=
  dot_S2000x256_S256x128_S2000x128_1_0_0_1_n_n.lhsIdx_val_of_single rfl j u
theorem rhs_row (j : S2000x128.Idx) (u : dot_S2000x256_S256x128_S2000x128_1_0_0_1_n_n.contr.Idx) : (dot_S2000x256_S256x128_S2000x128_1_0_0_1_n_n.rhsIdx j u 0).val = (u ⟨0, by decide⟩).val :=
  dot_S2000x256_S256x128_S2000x128_1_0_0_1_n_n.rhsIdx_val_of_single rfl j u
theorem rhs_col (j : S2000x128.Idx) (u : dot_S2000x256_S256x128_S2000x128_1_0_0_1_n_n.contr.Idx) : (dot_S2000x256_S256x128_S2000x128_1_0_0_1_n_n.rhsIdx j u 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A block's matrix product into a zero accumulator, at entry (p, q): the sum over the 256 contracted positions. -/
theorem product_apply (l : FVec Ideal S2000x256 .bf16) (w : FVec Ideal S256x128 .bf16) (p : Fin 2000) (q : Fin 128) :
    matmul dot_S2000x256_S256x128_S2000x128_1_0_0_1_n_n none l w (constant S2000x128 .f32 0x00000000#32) (ix2 p q) = ∑ κ : Fin 256, l (ix2 p κ) * w (ix2 κ q) := by
  simp only [matmul]
  rw [Ideal.matmul_constant_zero_apply, ← Equiv.sum_comp (contrEquiv1 dot_S2000x256_S256x128_S2000x128_1_0_0_1_n_n 256 rfl rfl).symm]
  refine Finset.sum_congr rfl fun κ _ => ?_
  have hk := contrEquiv1_symm_val dot_S2000x256_S256x128_S2000x128_1_0_0_1_n_n 256 rfl rfl κ
  have el : dot_S2000x256_S256x128_S2000x128_1_0_0_1_n_n.lhsIdx (ix2 p q) ((contrEquiv1 dot_S2000x256_S256x128_S2000x128_1_0_0_1_n_n 256 rfl rfl).symm κ) = ix2 p κ := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((contrEquiv1 dot_S2000x256_S256x128_S2000x128_1_0_0_1_n_n 256 rfl rfl).symm κ) = ix2 κ q := funext fun a => Fin.ext (by
    match a with
    | ⟨0, _⟩ => exact (rhs_row _ _).trans hk
    | ⟨1, _⟩ => exact rhs_col _ _)
  rw [el, er]

/-- The bias row spread over the block's rows, at entry (p, q): the row's entry q. -/
theorem bias_apply (v : S1x128.Idx → EReal) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- What one grid point's body stores, at entry (p, q), from the blocks it loaded. -/
theorem payload_apply (x0 : Vec Ideal S2000x256 .f32) (x1 : Vec Ideal S256x128 .f32) (x2 : Vec Ideal S2000x256 .f32)
    (x3 : Vec Ideal S256x128 .f32) (x4 : Vec Ideal S1x128 .f32) (p : Fin 2000) (q : Fin 128) :
    k3_pay1 (F := Ideal) x0 x1 x2 x3 x4 (ix2 p q)
      = (∑ κ : Fin 256, x0 (ix2 p κ) * x1 (ix2 κ q)) + (∑ κ : Fin 256, x2 (ix2 p κ) * x3 (ix2 κ q)) + x4 (ix2 0 q) := by
  unfold k3_pay1
  simp only [shapeCast_self]
  show FloatOps.addf (F := Ideal) (FloatOps.addf (F := Ideal) (matmul dot_S2000x256_S256x128_S2000x128_1_0_0_1_n_n none (truncf .bf16 x0 bitsLt_bf16_f32) (truncf .bf16 x1 bitsLt_bf16_f32) (constant S2000x128 .f32 0x00000000#32) (ix2 p q))
      (matmul dot_S2000x256_S256x128_S2000x128_1_0_0_1_n_n none (truncf .bf16 x2 bitsLt_bf16_f32) (truncf .bf16 x3 bitsLt_bf16_f32) (constant S2000x128 .f32 0x00000000#32) (ix2 p q)))
      (broadcastTo S2000x128 x4 broadcasts_S1x128_S2000x128 (ix2 p q)) = _
  rw [product_apply, product_apply, bias_apply]
  rfl

/-! ## From the grid points' blocks to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: the two row operands and the result move with the point along the
    rows; the weights and the bias row stay at block (0, 0). -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's band is row 2000·t + p of the array. -/
def bandRow (t : Fin cfg3.N) (p : Fin 2000) : Fin 100000 :=
  ⟨2000 * t.val + p.val, by have ht : t.val < 50 := lt_of_lt_of_eq t.isLt N_3; have hp := p.isLt; omega⟩

/-- Where the result's block at point t sits in the result array. -/
theorem result_emb (t : Fin cfg3.N) (p : Fin 2000) (q : Fin 128) :
    ((cfg3.win 5).blk t).view.emb (ix2 p q) = ix2 (bandRow t p) q := by
  obtain ⟨-, -, -, -, -, -, -, -, -, -, e0, e1⟩ := index_maps t
  funext a; apply Fin.ext
  match a with
  | ⟨0, _⟩ => show win3_5.index t (0 : Fin 2) * 2000 + 1 * p.val = 2000 * t.val + p.val; omega
  | ⟨1, _⟩ => show win3_5.index t (1 : Fin 2) * 128 + 1 * q.val = q.val; omega

/-- The first row operand's block at point t, read at (p, κ): the array at row 2000·t + p. -/
theorem read_rows0 (c : Dev nD) (t : Fin cfg3.N) (p : Fin 2000) (κ : Fin 256) :
    iblk3 V c 0 t (ix2 p κ) = V c (Pipeline.arrRef spec3 0) (ix2 (bandRow t p) κ) := by
  obtain ⟨e0, e1, -⟩ := index_maps t
  show V c (Pipeline.arrRef spec3 0) (((cfg3.win 0).blk t).view.emb (ix2 p κ)) = _
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 256 + 1 * κ.val = κ.val; omega

/-- The second row operand's block at point t, read at (p, κ): the array at row 2000·t + p. -/
theorem read_rows2 (c : Dev nD) (t : Fin cfg3.N) (p : Fin 2000) (κ : Fin 256) :
    iblk3 V c 2 t (ix2 p κ) = V c (Pipeline.arrRef spec3 2) (ix2 (bandRow t p) κ) := by
  obtain ⟨-, -, -, -, e0, e1, -⟩ := index_maps t
  show V c (Pipeline.arrRef spec3 2) (((cfg3.win 2).blk t).view.emb (ix2 p κ)) = _
  refine congrArg _ (funext fun a => Fin.ext ?_)
  match a with
  | ⟨0, _⟩ => show win3_2.index t (0 : Fin 2) * 2000 + 1 * p.val = 2000 * t.val + p.val; omega
  | ⟨1, _⟩ => show win3_2.index t (1 : Fin 2) * 256 + 1 * κ.val = κ.val; omega

/-- The first weight matrix is staged whole at every point. -/
theorem read_weights1 (c : Dev nD) (t : Fin cfg3.N) (κ : Fin 256) (q : Fin 128) :
    iblk3 V c 1 t (ix2 κ q) = V c (Pipeline.arrRef spec3 1) (ix2 κ q) := by
  obtain ⟨-, -, e0, e1, -⟩ := index_maps t
  show V c (Pipeline.arrRef spec3 1) (((cfg3.win 1).blk t).view.emb (ix2 κ q)) = _
  refine congrArg _ (funext fun a => Fin.ext ?_)
  match a with
  | ⟨0, _⟩ => show win3_1.index t (0 : Fin 2) * 256 + 1 * κ.val = κ.val; omega
  | ⟨1, _⟩ => show win3_1.index t (1 : Fin 2) * 128 + 1 * q.val = q.val; omega

/-- The second weight matrix is staged whole at every point. -/
theorem read_weights3 (c : Dev nD) (t : Fin cfg3.N) (κ : Fin 256) (q : Fin 128) :
    iblk3 V c 3 t (ix2 κ q) = V c (Pipeline.arrRef spec3 3) (ix2 κ q) := by
  obtain ⟨-, -, -, -, -, -, e0, e1, -⟩ := index_maps t
  show V c (Pipeline.arrRef spec3 3) (((cfg3.win 3).blk t).view.emb (ix2 κ q)) = _
  refine congrArg _ (funext fun a => Fin.ext ?_)
  match a with
  | ⟨0, _⟩ => show win3_3.index t (0 : Fin 2) * 256 + 1 * κ.val = κ.val; omega
  | ⟨1, _⟩ => show win3_3.index t (1 : Fin 2) * 128 + 1 * q.val = q.val; omega

/-- The bias row is staged whole at every point. -/
theorem read_bias (c : Dev nD) (t : Fin cfg3.N) (q : Fin 128) :
    iblk3 V c 4 t (ix2 (0 : Fin 1) q) = V c (Pipeline.arrRef spec3 4) (ix2 (0 : Fin 1) q) := by
  obtain ⟨-, -, -, -, -, -, -, -, e0, e1, -⟩ := index_maps t
  show V c (Pipeline.arrRef spec3 4) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- What point t writes back is band t of the layer's result over the arrays as the launch finds them. -/
theorem flushed_eq (c : Dev nD) (t : Fin cfg3.N) :
    (dat3 V c).flushed 5 t = ((cfg3.win 5).blk t).view.read (Elt Ideal) (G (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S2000x256) zero_offsets, View.ld_unit_zero (S := S256x128) zero_offsets, View.ld_unit_zero (S := S1x128) zero_offsets]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = (G (V c (Pipeline.arrRef spec3 0)) (V c (Pipeline.arrRef spec3 1)) (V c (Pipeline.arrRef spec3 2)) (V c (Pipeline.arrRef spec3 3)) (V c (Pipeline.arrRef spec3 4))) (((cfg3.win 5).blk t).view.emb (ix2 p q))
  refine (payload_apply (iblk3 V c 0 t) (iblk3 V c 1 t) (iblk3 V c 2 t) (iblk3 V c 3 t) (iblk3 V c 4 t) p q).trans ?_
  rw [result_emb t p q]
  unfold G entry
  simp only [read_rows0 V c t, read_rows2 V c t, read_weights1 V c t, read_weights3 V c t, read_bias V c t]

/-- An index of the result array is in point t's block iff its row is in band t. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole (Pipeline.arrRef spec3 5)).slice (win3_5.rect t)).set ↔ _
  rw [View.set_slice_whole, Rect.mem_set_unit]
  exact Iff.rfl

/-- Every index of the result array is in the block of the point its row's band names. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  let t : Fin cfg3.N := ⟨(i 0).val / 2000, lt_of_lt_of_eq (by omega) N_3.symm⟩
  obtain ⟨-, -, -, -, -, -, -, -, -, -, e0, e1⟩ := index_maps t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- After the launch the result array is the layer's result of the arrays as the launch finds them. -/
theorem result_array (c : Dev nD) : (dat3 V c).arrAt 5 cfg3.N = (G (V c (Pipeline.arrRef spec3 0)) (V c (Pipeline.arrRef spec3 1)) (V c (Pipeline.arrRef spec3 2)) (V c (Pipeline.arrRef spec3 3)) (V c (Pipeline.arrRef spec3 4))) :=
  (dat3 V c).arrAt_eq_of_cover 5 _ (fun t _ => flushed_eq V c t) cover

end Blocks

end Cert.KernelIdeal.Layer3

end
-- ==== Proof.Decode.lean ====
/-
  The last launch of the kernel: the decode, score[l] = Σ_κ zu[l, κ] · zi[l, κ] as a column [400000, 1].
  The grid has 100 points; point t stages rows 4000·t … 4000·t + 3999 of the two gathered embedding arrays (all 128
  columns) and writes back rows 4000·t … 4000·t + 3999 of the one-column result. A block's entry (p, 0) is the sum
  along the 128 lanes of the products in row p, started from the zero word, then given a trailing axis of extent
  one. The 100 row bands tile the 400000 rows, so after the launch the column holds, in row l, the sum over κ of
  zu[l, κ]·zi[l, κ] of the whole arrays.
-/
import proofs.«165792_j41575283425666_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Decode

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The decode as one function of whole arrays -/

/-- Row l's score: the sum over the 128 columns of the two rows' products. -/
def score (zu zi : S400000x128.Idx → EReal) (l : Fin 400000) : EReal :=
  ∑ κ : Fin 128, zu (ix2 l κ) * zi (ix2 l κ)

/-- The scores as the one-column array the launch writes. -/
def G (zu zi : S400000x128.Idx → EReal) : S400000x1.Idx → EReal :=
  fun i => score zu zi (i 0)

/-! ## One block's arithmetic at an entry -/

/-- A vector of 4000 given a trailing axis of extent one, read at (p, 0): the vector's entry p. -/
theorem column_apply (v : S4000.Idx → EReal) (p : Fin 4000) (z : Fin 1) :
    shapeCast S4000x1 v shapeCasts_S4000_S4000x1 (ix2 p z) = v (ix1 p) :=
  shapeCast_apply v shapeCasts_S4000_S4000x1 (ix2 p z) (ix1 p) (by
    rw [Shape.rowMajor_val_one, Shape.rowMajor_val_two]
    show p.val = p.val * 1 + z.val
    have hz := z.isLt
    omega)

/-- The lane sum of a [4000, 128] block from the zero word, read at p: the sum over the 128 lanes of row p. -/
theorem lanesum_apply (x : FVec Ideal S4000x128 .f32) (hφ : FKind.Formats FTy.f32)
    (hacc : (0x00000000#32 : BitVec 32) = 0x00000000#32) (p : Fin 4000) :
    multiReduction .add [1] S4000 x 0x00000000#32 reduces_S4000x128_S4000 hφ hacc (ix1 p) = ∑ κ : Fin 128, x (ix2 p κ) := by
  refine (Ideal.multiReduction_add_single x 0x00000000#32 reduces_S4000x128_S4000 hφ hacc (ix1 p)).trans ?_
  refine Finset.sum_congr rfl fun κ _ => ?_
  exact congrArg x (funext fun a => Fin.ext (by match a with | ⟨0, _⟩ => rfl | ⟨1, _⟩ => rfl))

/-- What one grid point's body stores, at entry (p, 0), from the blocks it loaded. -/
theorem payload_apply (x0 x1 : Vec Ideal S4000x128 .f32) (p : Fin 4000) (z : Fin 1) :
    k4_pay1 (F := Ideal) x0 x1 (ix2 p z) = ∑ κ : Fin 128, x0 (ix2 p κ) * x1 (ix2 p κ) := by
  unfold k4_pay1
  simp only [shapeCast_self]
  refine (column_apply _ p z).trans ?_
  refine (lanesum_apply (mulf x0 x1) _ _ p).trans ?_
  rfl

/-! ## From the grid points' blocks to the whole array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed block-index maps over the grid: both operands and the result move with the point along the rows. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row p of point t's band is row 4000·t + p of the array. -/
def bandRow (t : Fin cfg4.N) (p : Fin 4000) : Fin 400000 :=
  ⟨4000 * t.val + p.val, by have ht : t.val < 100 := lt_of_lt_of_eq t.isLt N_4; have hp := p.isLt; omega⟩

/-- Where the result's block at point t sits in the result column. -/
theorem result_emb (t : Fin cfg4.N) (p : Fin 4000) (z : Fin 1) :
    ((cfg4.win 2).blk t).view.emb (ix2 p z) = ix2 (bandRow t p) z := by
  obtain ⟨-, -, -, -, e0, e1⟩ := index_maps t
  funext a; apply Fin.ext
  match a with
  | ⟨0, _⟩ => show win4_2.index t (0 : Fin 2) * 4000 + 1 * p.val = 4000 * t.val + p.val; omega
  | ⟨1, _⟩ => show win4_2.index t (1 : Fin 2) * 1 + 1 * z.val = z.val; omega

/-- The first operand's block at point t, read at (p, κ): the array at row 4000·t + p. -/
theorem read_rows0 (c : Dev nD) (t : Fin cfg4.N) (p : Fin 4000) (κ : Fin 128) :
    iblk4 V c 0 t (ix2 p κ) = V c (Pipeline.arrRef spec4 0) (ix2 (bandRow t p) κ) := by
  obtain ⟨e0, e1, -⟩ := index_maps t
  show V c (Pipeline.arrRef spec4 0) (((cfg4.win 0).blk t).view.emb (ix2 p κ)) = _
  refine congrArg _ (funext fun a => Fin.ext ?_)
  match a with
  | ⟨0, _⟩ => show win4_0.index t (0 : Fin 2) * 4000 + 1 * p.val = 4000 * t.val + p.val; omega
  | ⟨1, _⟩ => show win4_0.index t (1 : Fin 2) * 128 + 1 * κ.val = κ.val; omega

/-- The second operand's block at point t, read at (p, κ): the array at row 4000·t + p. -/
theorem read_rows1 (c : Dev nD) (t : Fin cfg4.N) (p : Fin 4000) (κ : Fin 128) :
    iblk4 V c 1 t (ix2 p κ) = V c (Pipeline.arrRef spec4 1) (ix2 (bandRow t p) κ) := by
  obtain ⟨-, -, e0, e1, -⟩ := index_maps t
  show V c (Pipeline.arrRef spec4 1) (((cfg4.win 1).blk t).view.emb (ix2 p κ)) = _
  refine congrArg _ (funext fun a => Fin.ext ?_)
  match a with
  | ⟨0, _⟩ => show win4_1.index t (0 : Fin 2) * 4000 + 1 * p.val = 4000 * t.val + p.val; omega
  | ⟨1, _⟩ => show win4_1.index t (1 : Fin 2) * 128 + 1 * κ.val = κ.val; omega

/-- What point t writes back is band t of the score column over the arrays as the launch finds them. -/
theorem flushed_eq (c : Dev nD) (t : Fin cfg4.N) :
    (dat4 V c).flushed 2 t = ((cfg4.win 2).blk t).view.read (Elt Ideal)
      (G (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S4000x128) zero_offsets]
  funext j
  obtain ⟨p, z, rfl⟩ : ∃ (p : Fin 4000) (z : Fin 1), j = ix2 p z := ⟨j 0, j 1, eq_ix2 j⟩
  show k4_pay1 (iblk4 V c 0 t) (iblk4 V c 1 t) (ix2 p z)
    = G (V c (Pipeline.arrRef spec4 0)) (V c (Pipeline.arrRef spec4 1)) (((cfg4.win 2).blk t).view.emb (ix2 p z))
  refine (payload_apply (iblk4 V c 0 t) (iblk4 V c 1 t) p z).trans ?_
  rw [result_emb t p z]
  unfold G score
  simp only [read_rows0 V c t, read_rows1 V c t]

/-- An index of the result column is in point t's block iff its row is in band t. -/
theorem mem_blk (t : Fin cfg4.N) (i : S400000x1.Idx) :
    i ∈ ((cfg4.win 2).blk t).view.set ↔ ∀ a : Fin 2, win4_2.index t a * S4000x1.size a ≤ (i a).val ∧ (i a).val < win4_2.index t a * S4000x1.size a + S4000x1.size a := by
  show i ∈ ((View.whole (Pipeline.arrRef spec4 2)).slice (win4_2.rect t)).set ↔ _
  rw [View.set_slice_whole, Rect.mem_set_unit]
  exact Iff.rfl

/-- Every index of the result column is in the block of the point its row's band names. -/
theorem cover (i : S400000x1.Idx) :
    ∃ t : Fin cfg4.N, (cfg4.win 2).flush t = true ∧ i ∈ ((cfg4.win 2).blk t).view.set := by
  have hi0 : (i 0).val < 400000 := (i 0).isLt
  have hi1 : (i 1).val < 1 := (i 1).isLt
  let t : Fin cfg4.N := ⟨(i 0).val / 4000, lt_of_lt_of_eq (by omega) N_4.symm⟩
  obtain ⟨-, -, -, -, e0, e1⟩ := index_maps t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 1 ≤ (i 1).val ∧ (i 1).val < win4_2.index t (1 : Fin 2) * 1 + 1; omega

/-- After the launch the result column is the scores of the arrays as the launch finds them. -/
theorem result_array (c : Dev nD) :
    (dat4 V c).arrAt 2 cfg4.N = G (V c (Pipeline.arrRef spec4 0)) (V c (Pipeline.arrRef spec4 1)) :=
  (dat4 V c).arrAt_eq_of_cover 2 _ (fun t _ => flushed_eq V c t) cover

end Blocks

end Cert.KernelIdeal.Decode

end
-- ==== Proof.RefLayers.lean ====
/-
  Each launch's whole-array function, applied to the reference's operand stages, IS the reference's stage after the
  layer. At an index (r, q) the reference's stage reads as: its two `dot_general`s, each the sum over the contracted
  position κ of a left entry (r, κ) times a right entry (κ, q); their sum; plus the bias, first made a row [1, C] and
  then spread down the rows, which at (r, q) is the bias's entry q; and for the first layer the maximum with the zero
  word. That is the launch's function entry by entry. The decode's column of scores, its trailing axis of extent one
  dropped again, is the reference's row sum of the products from the zero word.
-/
import proofs.«165792_j41575283425666_1_alg».proof.Proof.Layer0
import proofs.«165792_j41575283425666_1_alg».proof.Proof.Layer1
import proofs.«165792_j41575283425666_1_alg».proof.Proof.Layer2
import proofs.«165792_j41575283425666_1_alg».proof.Proof.Layer3
import proofs.«165792_j41575283425666_1_alg».proof.Proof.Decode
import proofs.«165792_j41575283425666_1_alg».proof.Proof.Gen.ReferenceIdeal.Read

set_option maxRecDepth 16384

noncomputable section

namespace Cert.Bridge

open Idealize.ShloMosaic Idealize.ShloMosaic.ValueIdx Cert.ReferenceIdeal Cert.ReferenceIdeal.Read
open scoped BigOperators

/-! ## The first layer, item side: stages %36 … %42 -/

theorem layer0_ref (x0 : S100000x128.Idx → EReal) (x1 : S50000x128.Idx → EReal) (x2 x3 : S800000.Idx → BitVec 32)
    (x6 x7 : S128x256.Idx → EReal) (x8 : S256.Idx → EReal) (b : S1x256.Idx → EReal)
    (hb : ∀ q : Fin 256, b (ix2 (0 : Fin 1) q) = x8 (ix1 q)) :
    Cert.KernelIdeal.Layer0.G (val_main_v17 (F := Ideal) x0 x2 x3) x6 x1 x7 b = val_main_v42 (F := Ideal) x0 x1 x2 x3 x6 x7 x8 := by
  funext i
  rw [val_main_v42_apply, val_main_v41_apply, val_main_v38_apply, val_main_v36_apply, val_main_v37_apply, val_main_v40_apply,
    val_main_v39_apply, val_main_call2_v0_apply, val_main_call2_cst_apply]
  generalize val_main_v17 (F := Ideal) x0 x2 x3 = A
  unfold Cert.KernelIdeal.Layer0.G Cert.KernelIdeal.Layer0.entry
  rw [hb (i 1)]
  have e1 : ∀ k : Fin 128, lidx_main_v36 i k = ix2 (n0 := 50000) (n1 := 128) (i 0) k := fun k => funext fun a => by
    match a with | ⟨0, _⟩ => rfl | ⟨1, _⟩ => rfl
  have e2 : ∀ k : Fin 128, ridx_main_v36 i k = ix2 (n0 := 128) (n1 := 256) k (i 1) := fun k => funext fun a => by
    match a with | ⟨0, _⟩ => rfl | ⟨1, _⟩ => rfl
  have e3 : ∀ k : Fin 128, lidx_main_v37 i k = ix2 (n0 := 50000) (n1 := 128) (i 0) k := fun k => funext fun a => by
    match a with | ⟨0, _⟩ => rfl | ⟨1, _⟩ => rfl
  have e4 : ∀ k : Fin 128, ridx_main_v37 i k = ix2 (n0 := 128) (n1 := 256) k (i 1) := fun k => funext fun a => by
    match a with | ⟨0, _⟩ => rfl | ⟨1, _⟩ => rfl
  have e5 : idx_main_v39 (idx_main_v40 i) = ix1 (n := 256) (i 1) := funext fun a => by
    match a with | ⟨0, _⟩ => rfl
  simp only [e1, e2, e3, e4, e5]
  rfl

/-! ## The first layer, user side: stages %43 … %49 -/

theorem layer1_ref (x0 : S100000x128.Idx → EReal) (x1 : S50000x128.Idx → EReal) (x2 x3 : S800000.Idx → BitVec 32)
    (x9 x10 : S128x256.Idx → EReal) (x11 : S256.Idx → EReal) (b : S1x256.Idx → EReal)
    (hb : ∀ q : Fin 256, b (ix2 (0 : Fin 1) q) = x11 (ix1 q)) :
    Cert.KernelIdeal.Layer1.G (val_main_v35 (F := Ideal) x1 x2 x3) x9 x0 x10 b = val_main_v49 (F := Ideal) x0 x1 x2 x3 x9 x10 x11 := by
  funext i
  rw [val_main_v49_apply, val_main_v48_apply, val_main_v45_apply, val_main_v43_apply, val_main_v44_apply, val_main_v47_apply,
    val_main_v46_apply, val_main_call3_v0_apply, val_main_call3_cst_apply]
  generalize val_main_v35 (F := Ideal) x1 x2 x3 = A
  unfold Cert.KernelIdeal.Layer1.G Cert.KernelIdeal.Layer1.entry
  rw [hb (i 1)]
  have e1 : ∀ k : Fin 128, lidx_main_v43 i k = ix2 (n0 := 100000) (n1 := 128) (i 0) k := fun k => funext fun a => by
    match a with | ⟨0, _⟩ => rfl | ⟨1, _⟩ => rfl
  have e2 : ∀ k : Fin 128, ridx_main_v43 i k = ix2 (n0 := 128) (n1 := 256) k (i 1) := fun k => funext fun a => by
    match a with | ⟨0, _⟩ => rfl | ⟨1, _⟩ => rfl
  have e3 : ∀ k : Fin 128, lidx_main_v44 i k = ix2 (n0 := 100000) (n1 := 128) (i 0) k := fun k => funext fun a => by
    match a with | ⟨0, _⟩ => rfl | ⟨1, _⟩ => rfl
  have e4 : ∀ k : Fin 128, ridx_main_v44 i k = ix2 (n0 := 128) (n1 := 256) k (i 1) := fun k => funext fun a => by
    match a with | ⟨0, _⟩ => rfl | ⟨1, _⟩ => rfl
  have e5 : idx_main_v46 (idx_main_v47 i) = ix1 (n := 256) (i 1) := funext fun a => by
    match a with | ⟨0, _⟩ => rfl
  simp only [e1, e2, e3, e4, e5]
  rfl

/-! ## The second layer, item side: stages %86 … %91 -/

theorem layer2_ref (x0 : S100000x128.Idx → EReal) (x1 : S50000x128.Idx → EReal) (x2 x3 : S800000.Idx → BitVec 32)
    (x6 x7 : S128x256.Idx → EReal) (x8 : S256.Idx → EReal) (x9 x10 : S128x256.Idx → EReal) (x11 : S256.Idx → EReal)
    (x12 x13 : S256x128.Idx → EReal) (x14 : S128.Idx → EReal) (b : S1x128.Idx → EReal)
    (hb : ∀ q : Fin 128, b (ix2 (0 : Fin 1) q) = x14 (ix1 q)) :
    Cert.KernelIdeal.Layer2.G (val_main_v67 (F := Ideal) x0 x1 x2 x3 x9 x10 x11) x12 (val_main_v42 (F := Ideal) x0 x1 x2 x3 x6 x7 x8) x13 b
      = val_main_v91 (F := Ideal) x0 x1 x2 x3 x6 x7 x8 x9 x10 x11 x12 x13 x14 := by
  funext i
  rw [val_main_v91_apply, val_main_v88_apply, val_main_v86_apply, val_main_v87_apply, val_main_v90_apply, val_main_v89_apply]
  generalize val_main_v67 (F := Ideal) x0 x1 x2 x3 x9 x10 x11 = A
  generalize val_main_v42 (F := Ideal) x0 x1 x2 x3 x6 x7 x8 = B
  unfold Cert.KernelIdeal.Layer2.G Cert.KernelIdeal.Layer2.entry
  rw [hb (i 1)]
  have e1 : ∀ k : Fin 256, lidx_main_v86 i k = ix2 (n0 := 50000) (n1 := 256) (i 0) k := fun k => funext fun a => by
    match a with | ⟨0, _⟩ => rfl | ⟨1, _⟩ => rfl
  have e2 : ∀ k : Fin 256, ridx_main_v86 i k = ix2 (n0 := 256) (n1 := 128) k (i 1) := fun k => funext fun a => by
    match a with | ⟨0, _⟩ => rfl | ⟨1, _⟩ => rfl
  have e3 : ∀ k : Fin 256, lidx_main_v87 i k = ix2 (n0 := 50000) (n1 := 256) (i 0) k := fun k => funext fun a => by
    match a with | ⟨0, _⟩ => rfl | ⟨1, _⟩ => rfl
  have e4 : ∀ k : Fin 256, ridx_main_v87 i k = ix2 (n0 := 256) (n1 := 128) k (i 1) := fun k => funext fun a => by
    match a with | ⟨0, _⟩ => rfl | ⟨1, _⟩ => rfl
  have e5 : idx_main_v89 (idx_main_v90 i) = ix1 (n := 128) (i 1) := funext fun a => by
    match a with | ⟨0, _⟩ => rfl
  simp only [e1, e2, e3, e4, e5]
  rfl

/-! ## The second layer, user side: stages %92 … %97 -/

theorem layer3_ref (x0 : S100000x128.Idx → EReal) (x1 : S50000x128.Idx → EReal) (x2 x3 : S800000.Idx → BitVec 32)
    (x6 x7 : S128x256.Idx → EReal) (x8 : S256.Idx → EReal) (x9 x10 : S128x256.Idx → EReal) (x11 : S256.Idx → EReal)
    (x15 x16 : S256x128.Idx → EReal) (x17 : S128.Idx → EReal) (b : S1x128.Idx → EReal)
    (hb : ∀ q : Fin 128, b (ix2 (0 : Fin 1) q) = x17 (ix1 q)) :
    Cert.KernelIdeal.Layer3.G (val_main_v85 (F := Ideal) x0 x1 x2 x3 x6 x7 x8) x15 (val_main_v49 (F := Ideal) x0 x1 x2 x3 x9 x10 x11) x16 b
      = val_main_v97 (F := Ideal) x0 x1 x2 x3 x6 x7 x8 x9 x10 x11 x15 x16 x17 := by
  funext i
  rw [val_main_v97_apply, val_main_v94_apply, val_main_v92_apply, val_main_v93_apply, val_main_v96_apply, val_main_v95_apply]
  generalize val_main_v85 (F := Ideal) x0 x1 x2 x3 x6 x7 x8 = A
  generalize val_main_v49 (F := Ideal) x0 x1 x2 x3 x9 x10 x11 = B
  unfold Cert.KernelIdeal.Layer3.G Cert.KernelIdeal.Layer3.entry
  rw [hb (i 1)]
  have e1 : ∀ k : Fin 256, lidx_main_v92 i k = ix2 (n0 := 100000) (n1 := 256) (i 0) k := fun k => funext fun a => by
    match a with | ⟨0, _⟩ => rfl | ⟨1, _⟩ => rfl
  have e2 : ∀ k : Fin 256, ridx_main_v92 i k = ix2 (n0 := 256) (n1 := 128) k (i 1) := fun k => funext fun a => by
    match a with | ⟨0, _⟩ => rfl | ⟨1, _⟩ => rfl
  have e3 : ∀ k : Fin 256, lidx_main_v93 i k = ix2 (n0 := 100000) (n1 := 256) (i 0) k := fun k => funext fun a => by
    match a with | ⟨0, _⟩ => rfl | ⟨1, _⟩ => rfl
  have e4 : ∀ k : Fin 256, ridx_main_v93 i k = ix2 (n0 := 256) (n1 := 128) k (i 1) := fun k => funext fun a => by
    match a with | ⟨0, _⟩ => rfl | ⟨1, _⟩ => rfl
  have e5 : idx_main_v95 (idx_main_v96 i) = ix1 (n := 128) (i 1) := funext fun a => by
    match a with | ⟨0, _⟩ => rfl
  simp only [e1, e2, e3, e4, e5]
  rfl

/-! ## The decode: stages %112, %113 -/

/-- A column [400000, 1] with its unit axis dropped, read at l: the column's entry (l, 0). -/
theorem column_dropped (col : S400000x1.Idx → EReal) (h : S400000x1.ShapeCasts S400000) (i : S400000.Idx) :
    shapeCast S400000 col h i = col (ix2 (n0 := 400000) (n1 := 1) (i 0) 0) :=
  shapeCast_apply col h i (ix2 (n0 := 400000) (n1 := 1) (i 0) 0) (by
    rw [Shape.rowMajor_val_two, Shape.rowMajor_val_one]
    show (i 0).val * 1 + 0 = (i 0).val
    omega)

/-- The reference's row sum of the products of ANY two [400000, 128] arrays from the zero word, at row l: the sum over
    the 128 columns of the products in that row. -/
theorem rowsum_of_products (zu zi : S400000x128.Idx → EReal) (i : S400000.Idx) :
    Host.reduceAdd (F := Ideal) (mulf (F := Ideal) (φ := .f32) zu zi) (constant (F := Ideal) S_ .f32 0x00000000#32) Gen.reducesTo_S400000x128_S400000_d1 Gen.h_S_ i
      = ∑ κ : Fin 128, zu (ix2 (n0 := 400000) (n1 := 128) (i 0) κ) * zi (ix2 (n0 := 400000) (n1 := 128) (i 0) κ) := by
  generalize hy : mulf (F := Ideal) (φ := .f32) zu zi = y
  simp only [Host.reduceAdd, Ideal.hostReduceAdd_def]
  rw [Ideal.hostReduceAdd_single Gen.reducesTo_S400000x128_S400000_d1 (by decide)]
  subst hy
  show Ideal.ofBits .f32 0x00000000#32 + _ = _
  rw [Ideal.ofBits_zero_f32, zero_add]
  refine Finset.sum_congr rfl fun k _ => ?_
  show zu _ * zi _ = _
  congr 1 <;> exact congrArg _ (funext fun a => Fin.ext (by match a with | ⟨0, _⟩ => rfl | ⟨1, _⟩ => rfl))

theorem decode_ref (x0 : S100000x128.Idx → EReal) (x1 : S50000x128.Idx → EReal) (x2 x3 : S800000.Idx → BitVec 32)
    (x4 x5 : S400000.Idx → BitVec 32) (x6 x7 : S128x256.Idx → EReal) (x8 : S256.Idx → EReal) (x9 x10 : S128x256.Idx → EReal)
    (x11 : S256.Idx → EReal) (x12 x13 : S256x128.Idx → EReal) (x14 : S128.Idx → EReal) (x15 x16 : S256x128.Idx → EReal)
    (x17 : S128.Idx → EReal) (h : S400000x1.ShapeCasts S400000) :
    (fun i => shapeCast S400000 (Cert.KernelIdeal.Decode.G (val_main_v104 (F := Ideal) x0 x1 x2 x3 x4 x6 x7 x8 x9 x10 x11 x15 x16 x17)
        (val_main_v111 (F := Ideal) x0 x1 x2 x3 x5 x6 x7 x8 x9 x10 x11 x12 x13 x14)) h i)
      = val_main_v113 (F := Ideal) x0 x1 x2 x3 x4 x5 x6 x7 x8 x9 x10 x11 x12 x13 x14 x15 x16 x17 := by
  funext i
  rw [column_dropped]
  unfold val_main_v113 val_main_v112 val_main_cst_26
  generalize val_main_v104 (F := Ideal) x0 x1 x2 x3 x4 x6 x7 x8 x9 x10 x11 x15 x16 x17 = zu
  generalize val_main_v111 (F := Ideal) x0 x1 x2 x3 x5 x6 x7 x8 x9 x10 x11 x12 x13 x14 = zi
  rw [rowsum_of_products]
  rfl

end Cert.Bridge

end
-- ==== Proof.Chain.lean ====
/-
  The idealized kernel's result is the reference's result of the same arguments. Launch by launch: at a launch's
  entry its operand arrays hold the reference's stages (the shared host operations, read back: Glue), the launch
  leaves the layer's whole-array function of them in its result array (the launch's own module), and that function
  of those stages is the reference's next stage (the reference read at an index: RefLayers). So the hidden rows of
  items and users, then the embeddings of items and users, then the two gathered embedding arrays and the score
  column are the reference's; the final reshape drops the column's unit axis.
-/
import proofs.«165792_j41575283425666_1_alg».proof.Proof.Glue
import proofs.«165792_j41575283425666_1_alg».proof.Proof.RefLayers

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- h_item: after launch 0. -/
theorem h_item (c : Dev nD) : W6 m ρ c (Proc.devRef .tc main_v37) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  refine ((W6_arr m ρ c 5).trans (Layer0.result_array (V5 m ρ) c)).trans ?_
  rw [show V5 m ρ c (Pipeline.arrRef spec0 0) = _ from Glue.agg_i m ρ c, show V5 m ρ c (Pipeline.arrRef spec0 1) = _ from Glue.arg6_at5 m ρ c,
    show V5 m ρ c (Pipeline.arrRef spec0 2) = _ from Glue.arg1_at5 m ρ c, show V5 m ρ c (Pipeline.arrRef spec0 3) = _ from Glue.arg7_at5 m ρ c]
  exact Cert.Bridge.layer0_ref _ _ _ _ _ _ _ _ (Glue.bias0 m ρ c)

/-- h_user: after launch 1. -/
theorem h_user (c : Dev nD) : W8 m ρ c (Proc.devRef .tc main_v39) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) (m ((c : Thread nD τ).loc main_arg11)) := by
  refine ((W8_arr m ρ c 5).trans (Layer1.result_array (V7 m ρ) c)).trans ?_
  rw [show V7 m ρ c (Pipeline.arrRef spec1 0) = _ from Glue.agg_u_at7 m ρ c, show V7 m ρ c (Pipeline.arrRef spec1 1) = _ from Glue.arg9_at7 m ρ c,
    show V7 m ρ c (Pipeline.arrRef spec1 2) = _ from Glue.arg0_at7 m ρ c, show V7 m ρ c (Pipeline.arrRef spec1 3) = _ from Glue.arg10_at7 m ρ c]
  exact Cert.Bridge.layer1_ref _ _ _ _ _ _ _ _ (Glue.bias1 m ρ c)

/-- h_item is still in its buffer when launch 1 has run. -/
theorem h_item_at8 (c : Dev nD) : W8 m ρ c (Proc.devRef .tc main_v37) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (Glue.h_item_at8 m ρ c).trans (h_item m ρ c)

/-- z_item: after launch 2. -/
theorem z_item (c : Dev nD) : W14 m ρ c (Proc.devRef .tc main_v77) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine ((W14_arr m ρ c 5).trans (Layer2.result_array (V13 m ρ) c)).trans ?_
  rw [show V13 m ρ c (Pipeline.arrRef spec2 0) = _ from Glue.agg_i2 m ρ c (h_user m ρ c), show V13 m ρ c (Pipeline.arrRef spec2 1) = _ from Glue.arg12_at13 m ρ c,
    show V13 m ρ c (Pipeline.arrRef spec2 2) = _ from (Glue.h_item_at13 m ρ c).trans (h_item_at8 m ρ c), show V13 m ρ c (Pipeline.arrRef spec2 3) = _ from Glue.arg13_at13 m ρ c]
  exact Cert.Bridge.layer2_ref _ _ _ _ _ _ _ _ _ _ _ _ _ _ (Glue.bias2 m ρ c)

/-- z_user: after launch 3. -/
theorem z_user (c : Dev nD) : W16 m ρ c (Proc.devRef .tc main_v79) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  refine ((W16_arr m ρ c 5).trans (Layer3.result_array (V15 m ρ) c)).trans ?_
  rw [show V15 m ρ c (Pipeline.arrRef spec3 0) = _ from (Glue.agg_u2_at15 m ρ c).trans (Glue.agg_u2 m ρ c (h_item_at8 m ρ c)), show V15 m ρ c (Pipeline.arrRef spec3 1) = _ from Glue.arg15_at15 m ρ c,
    show V15 m ρ c (Pipeline.arrRef spec3 2) = _ from (Glue.h_user_at15 m ρ c).trans (h_user m ρ c), show V15 m ρ c (Pipeline.arrRef spec3 3) = _ from Glue.arg16_at15 m ρ c]
  exact Cert.Bridge.layer3_ref _ _ _ _ _ _ _ _ _ _ _ _ _ _ (Glue.bias3 m ρ c)

/-- The score column: after launch 4. -/
theorem scores (c : Dev nD) : W18 m ρ c (Proc.devRef .tc main_v94)
    = Decode.G (Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)))
        (Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine ((W18_arr m ρ c 2).trans (Decode.result_array (V17 m ρ) c)).trans ?_
  rw [show V17 m ρ c (Pipeline.arrRef spec4 0) = _ from Glue.zu_gathered m ρ c (z_user m ρ c),
    show V17 m ρ c (Pipeline.arrRef spec4 1) = _ from Glue.zi_gathered m ρ c ((Glue.z_item_at16 m ρ c).trans (z_item m ρ c))]

/-- THE RESULT: the kernel's result buffer at the end of the fold is the reference's last stage of the arguments. -/
theorem result (c : Dev nD) : W19 m ρ c (Proc.devRef .tc main_v95)
    = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  dsimp only [W19]
  simp only [hostOps5]
  after_results_simp
  rw [scores m ρ c]
  exact Cert.Bridge.decode_ref _ _ _ _ _ _ _ _ _ _ _ _ _ _ _ _ _ _ _

end Cert.KernelIdeal.Chain

end
-- ==== Proof.lean ====
/-
  Two-layer heterogeneous SAGE convolution with a dot-product decode: the tiled kernel against the plain reference.
  Both programs compute, on the host, the mean over incoming edges of the neighbours' rows (gather by edge,
  scatter-add by edge, divide by the edge count clamped below at one). The kernel then runs each dense layer
  out = act(agg · W_l + x · W_r + b) as a grid launch over bands of 2000 rows, and the final score
  Σ_κ z_user[src, κ] · z_item[dst, κ] as a grid launch over bands of 4000 rows; the reference runs them as whole-array
  matrix products, additions and a row sum. On extended reals a band of a matrix product is the same sums as the
  whole product's rows, narrowing an operand to bf16 changes nothing, and a product into a zero accumulator is the
  product: so each launch leaves exactly the reference's stage in its result array, and the results agree entry by
  entry. No property of the inputs is used beyond their being arguments both programs read unchanged.
  The three frames are the generated ones (the reference's from its generated run); nothing was idealized away, so
  the kernel's idealization is the program itself.
-/
import proofs.«165792_j41575283425666_1_alg».proof.Defs
import proofs.«165792_j41575283425666_1_alg».proof.Proof.Gen.Kernel
import proofs.«165792_j41575283425666_1_alg».proof.Proof.Gen.Kernel.Frame
import proofs.«165792_j41575283425666_1_alg».proof.Proof.Gen.KernelIdeal
import proofs.«165792_j41575283425666_1_alg».proof.Proof.Gen.KernelIdeal.Frame
import proofs.«165792_j41575283425666_1_alg».proof.Proof.Gen.ReferenceIdeal
import proofs.«165792_j41575283425666_1_alg».proof.Proof.Gen.Pre_finite_inputs
import proofs.«165792_j41575283425666_1_alg».proof.Proof.Gen.ReferenceIdeal.Run
import proofs.«165792_j41575283425666_1_alg».proof.Proof.Gen.ReferenceIdeal.Read
import proofs.«165792_j41575283425666_1_alg».proof.Proof.KernelRun
import proofs.«165792_j41575283425666_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no launch: its frame is its generated run with the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eighteen arguments both programs run, and end with the same scores. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W19 m ρ c (Proc.devRef .tc Cert.KernelIdeal.main_v95), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v113_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
